-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S512x128 : Shape := ⟨2, ![512, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S1600000 .f32) (main_arg1 : IVec S1600000 32) (main_arg2 : IVec S1600000 32) (main_arg3 : FVec F S1600000 .f32) (main_arg4 : IVec S1600000 32) (main_arg5 : IVec S1600000 32) (main_arg6 : FVec F S512x128 .f32) (main_arg7 : FVec F S1600000 .f32) : IVec S_ 1 :=
  let main_v0 : FVec F S1600000 .f32 := Host.absf main_arg0
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg6
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S1600000 .f32 := Host.absf main_arg7
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S1600000 : Shape := ⟨1, ![1600000]⟩
abbrev S512x128 : Shape := ⟨2, ![512, 128]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S1x128 : Shape := ⟨2, ![1, 128]⟩
abbrev S10000x128 : Shape := ⟨2, ![10000, 128]⟩
abbrev S128 : Shape := ⟨1, ![128]⟩
abbrev S1x1 : Shape := ⟨2, ![1, 1]⟩
abbrev S10000 : Shape := ⟨1, ![10000]⟩
abbrev S10000x1 : Shape := ⟨2, ![10000, 1]⟩
abbrev S1 : Shape := ⟨1, ![1]⟩

abbrev nBuf : Space → Nat
  | .hbm => 72
  | .vmem => 16
  | .smem => 0
  | _ => 0

abbrev bufTy : (tb : Table) → Fin (tcTables nBuf tb) → BufTy
  | .hbm, ⟨0, _⟩ => ⟨S1600000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S512x128, .f32⟩
  | .hbm, ⟨7, _⟩ => ⟨S1600000, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000, .f32⟩
  | .hbm, ⟨12, _⟩ => ⟨S1600000, .f32⟩
  | .hbm, ⟨13, _⟩ => ⟨S_, .f32⟩
  | .hbm, ⟨14, _⟩ => ⟨S1600000, .f32⟩
  | .hbm, ⟨15, _⟩ => ⟨S1600000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x1, .f32⟩
  | .local _ .vmem, ⟨11, _⟩ => ⟨S10000x128, .f32⟩
  | .local _ .vmem, ⟨12, _⟩ => ⟨S10000x128, .f32⟩
  | .local _ .vmem, ⟨13, _⟩ => ⟨S1x1, .f32⟩
  | .local _ .vmem, ⟨14, _⟩ => ⟨S10000x128, .f32⟩
  | .local _ .vmem, ⟨15, _⟩ => ⟨S10000x128, .f32⟩
  | _, _ => ⟨S1600000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  inb_S1x1_S1x1_0_0 : ∀ a, (![0, 0] : Fin 2 → Nat) a + S1x1.size a ≤ S1x1.size a
  h_S1x1 : 0 < S1x1.numel
  broadcasts_S1x128_S10000x128 : S1x128.Broadcasts S10000x128
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S10000x128 : S1x1.Broadcasts S10000x128
  gather_S512x128_S1600000x1_S1600000x128_1_0_n_n_0_1_1128_wf : GatherDims.WF S512x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def gather_S512x128_S1600000x1_S1600000x128_1_0_n_n_0_1_1128 : GatherDims S512x128 S1600000x1 S1600000x128 where
  offsetDims := [1]
  collapsedSliceDims := [0]
  operandBatchingDims := []
  startIndicesBatchingDims := []
  startIndexMap := [0]
  indexVectorDim := 1
  sliceSizes := ![1, 128]
  wf := gather_S512x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_0) S10000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1600000 : Shape := ⟨1, ![1600000]⟩
abbrev S512x128 : Shape := ⟨2, ![512, 128]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S128 : Shape := ⟨1, ![128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S1600000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S512x128, .f32⟩
  | .hbm, ⟨7, _⟩ => ⟨S1600000, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000, .f32⟩
  | .hbm, ⟨12, _⟩ => ⟨S1600000, .f32⟩
  | .hbm, ⟨13, _⟩ => ⟨S_, .f32⟩
  | .hbm, ⟨14, _⟩ => ⟨S1600000, .f32⟩
  | .hbm, ⟨15, _⟩ => ⟨S1600000, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100000x128, .f32⟩
  | .hbm, ⟨96, _⟩ => ⟨S100000x128, .f32⟩
  | _, _ => ⟨S1600000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call1_cst : Ref sig .tc := ⟨.hbm, 86, rfl⟩
abbrev main_call1_v0 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_cst_11 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  reducesTo_S100000x128_S_d0_1 : S100000x128.ReducesTo [0, 1] S_
  gather_S512x128_S1600000x1_S1600000x128_1_0_n_n_0_1_1128_wf : GatherDims.WF S512x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1600000x1_S1600000x128_1_0_n_n_0_1_1128_wf : GatherDims.WF S100000x128 S1600000x1 S1600000x128 [1] [0] [] [0] [] 1 ![1, 128]

variable [Facts₀]

def gather_S512x128_S1600000x1_S1600000x128_1_0_n_n_0_1_1128 : GatherDims S512x128 S1600000x1 S1600000x128 where
  offsetDims := [1]
  collapsedSliceDims := [0]
  operandBatchingDims := []
  startIndicesBatchingDims := []
  startIndexMap := [0]
  indexVectorDim := 1
  sliceSizes := ![1, 128]
  wf := gather_S512x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.KernelRun.lean ====
/-
  The kernel's run with its RESULT named: every weakly fair execution of the idealized kernel's program ends, without
  a fault, in a state whose result array holds what the last grid's write-backs leave of it (the contents at the last
  segment boundary, read at the result's buffer) and whose argument arrays are as launched. The argument is the
  launch of the program's six segments — three stretches of host operations, three grids — exactly as for the frame;
  only the reading of the final state differs: one more buffer is read off the last boundary's contents.
-/
import proofs.«154679_j31396210934417_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.Prefix.lean ====
/-
  The dense array both programs normalize, as ONE function of the eight argument arrays: the sparse dropout
  `xv = x_vals · floor (1/2 + u) · 2`, the first sparse product `pre_sup = Σ_{e : x_rows e = n} xv e · W[x_cols e, ·]`
  (rows of `W` gathered at the wrapped, clamped column indices, then scatter-added by row index), and the second
  `X = Σ_{e : e_rows e = n} e_vals e · pre_sup[e_cols e, ·]`. The kernel's program computes it with forty host
  operations before its first grid; here it is read off that stretch as one term.
-/
import proofs.«154679_j31396210934417_1_alg».proof.Proof.Gen.KernelIdeal.Frame
import Idealize.ShloMosaic.Lib.StableHlo.Run
import Idealize.ShloMosaic.PureOps.Ideal

noncomputable section

namespace Cert.KernelIdeal.KValue

open Idealize.ShloMosaic Idealize.ShloMosaic.TcCoe Idealize.ShloMosaic.Tactic Idealize.SL.Sem
open Cert.KernelIdeal Cert.KernelIdeal.Gen

/-- A float vector of one entry per nonzero. -/
abbrev FNnz := FVec Ideal S1600000 .f32
/-- An index vector of one entry per nonzero. -/
abbrev INnz := IVec S1600000 32
/-- The dense weight matrix. -/
abbrev FW := FVec Ideal S512x128 .f32
/-- A dense [100000, 128] array. -/
abbrev FDense := FVec Ideal S100000x128 .f32
/-- One row of 128 per nonzero. -/
abbrev FRows := FVec Ideal S1600000x128 .f32

/-- An index vector with its negative entries wrapped by the axis length `n` (numpy's negative indexing),
    as a column of start indices. -/
def wrapIdx (n : BitVec 32) (a : INnz) : IVec S1600000x1 32 :=
  broadcastInDim S1600000x1 ![0] bcast_S1600000_S1600000x1_0
    (select
      (cmpi CmpIPredicate.slt a (broadcastInDim S1600000 ![] bcast_S_S1600000 (constantI S_ 32 0#32)))
      (addi a (broadcastInDim S1600000 ![] bcast_S_S1600000 (constantI S_ 32 n)))
      a)

/-- A per-nonzero scalar spread over the 128 columns. -/
def spread (v : FNnz) : FRows :=
  broadcastInDim S1600000x128 ![0, 1] bcast_S1600000x1_S1600000x128_0_1
    (broadcastInDim S1600000x1 ![0] bcast_S1600000_S1600000x1_0 v)

/-- The dropped-out, rescaled nonzero values `x_vals · floor (1/2 + u) · 2`. -/
def dropped (a0 a7 : FNnz) : FNnz :=
  mulf
    (mulf a0
      (Host.floor (F := Ideal)
        (addf (broadcastInDim S1600000 ![] bcast_S_S1600000 (constant (F := Ideal) S_ FTy.f32 0x3F000000#32)) a7)))
    (broadcastInDim S1600000 ![] bcast_S_S1600000 (constant (F := Ideal) S_ FTy.f32 0x40000000#32))

/-- Rows scatter-added into a zero [100000, 128] array by a row-index vector. -/
def segSum (rows : INnz) (u : FRows) : FDense :=
  Host.scatterAdd (F := Ideal) scatter_S100000x128_S1600000x1_S1600000x128_1_0_0_1
    (broadcastInDim S100000x128 ![] bcast_S_S100000x128 (constant (F := Ideal) S_ FTy.f32 0x00000000#32))
    (broadcastInDim S1600000x1 ![0] bcast_S1600000_S1600000x1_0 rows) u

/-- The first sparse product: `Σ_{e : x_rows e = n} xv e · W[x_cols e, ·]`. -/
def preSup (a0 : FNnz) (a1 a2 : INnz) (a6 : FW) (a7 : FNnz) : FDense :=
  segSum a1
    (mulf (spread (dropped a0 a7))
      (Host.gather gather_S512x128_S1600000x1_S1600000x128_1_0_n_n_0_1_1128 a6 (wrapIdx 512#32 a2)))

/-- The dense array both programs normalize: `Σ_{e : e_rows e = n} e_vals e · pre_sup[e_cols e, ·]`. -/
def pre (a0 : FNnz) (a1 a2 : INnz) (a3 : FNnz) (a4 a5 : INnz) (a6 : FW) (a7 : FNnz) : FDense :=
  segSum a4
    (mulf (spread a3)
      (Host.gather gather_S100000x128_S1600000x1_S1600000x128_1_0_n_n_0_1_1128 (preSup a0 a1 a2 a6 a7)
        (wrapIdx 100000#32 a5)))

variable (m : (ℓ : Loc nD τ sig) → Buf (Elt Ideal) ℓ) (ρ : Dev nD → PrngReg)

/-- When the first grid is entered, its input array holds `pre` of the argument arrays as launched. -/
theorem entry_array (c : Dev nD) :
    V1 (F := Ideal) m ρ c main_v31
      = pre (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  show StableHlo.after hostOps0 (W0 m ρ c) (Proc.devRef .tc main_v31) = _
  after_results_simp
  rfl

end Cert.KernelIdeal.KValue

end
-- ==== Proof.LibTileExtrema.lean ====
/-
  The smallest and the largest entry of one rectangular tile, read off a vector reduction, and the unit axes
  around it.

  A minimum-reduction of a [1, a, b] array over its two long axes, started from the f32 word of +∞, has exactly
  the lower bounds of the tile: a number is below it iff it is below every entry (`le_minAll_iff`).  The
  maximum-reduction from -∞ has exactly the tile's upper bounds (`maxAll_le_iff`).  Carried this way a running
  minimum over several tiles needs no algebra of finite sets: only which entries each side ranges over.
  Beside them: the [1] result seen as [1, 1, 1] and read at its one position; a [1, 1] array spread to [a, b];
  and two leading unit axes added to or dropped from a matrix, each read at coordinates.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibTileExtrema

open Idealize.ShloMosaic Idealize.ShloMosaic.ValueIdx

variable {α : Type}

/-! ## Unit axes -/

/-- A [1, 1, a, b] array seen as [a, b] reads, at (i, j), the array at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array seen as [1, 1, a, b] reads, at (u, v, i, j), the array at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1] array spread to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A [1] array seen as [1, 1, 1] and read at its one position is the array's one entry. -/
theorem extractAt_cast_1_111 (v : (⟨1, ![1]⟩ : Shape).Idx → α) (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ v h) hp = v (ix1 (0 : Fin 1)) := by
  unfold extractAt
  refine shapeCast_apply v h _ _ ?_
  rw [Shape.rowMajor_val_one, Shape.rowMajor_val_three]
  rfl

/-! ## The extrema of a tile -/

/-- Every index of a [1, a, b] array is (0, i, j). -/
theorem eq_ix3_zero {a b : ℕ} (x : (⟨3, ![1, a, b]⟩ : Shape).Idx) : ∃ (i : Fin a) (j : Fin b), x = ix3 (0 : Fin 1) i j := by
  refine ⟨x 1, x 2, ?_⟩
  have h0 : x 0 = (0 : Fin 1) := Fin.ext (by
    have hlt : (x 0).val < 1 := (x 0).isLt
    show (x 0).val = 0
    omega)
  have e := eq_ix3 x
  rw [h0] at e
  exact e

/-- Every index of a [1] array is 0. -/
theorem eq_ix1_zero (y : (⟨1, ![1]⟩ : Shape).Idx) : y = ix1 (0 : Fin 1) := by
  rw [eq_ix1 y]
  exact congrArg ix1 (Fin.ext (by
    have hlt : (y 0).val < 1 := (y 0).isLt
    show (y 0).val = 0
    omega))

/-- A number is below the minimum of a whole [1, a, b] tile, taken from +∞, iff it is below every entry. -/
theorem le_minAll_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.minimumf.neutral .f32 hφ) (htop : Ideal.ofBits .f32 acc = (⊤ : EReal)) (z : EReal) :
    z ≤ multiReduction .minimumf [1, 2] (⟨1, ![1]⟩ : Shape) src acc h hφ hacc (ix1 (0 : Fin 1))
      ↔ ∀ (i : Fin a) (j : Fin b), z ≤ src (ix3 (0 : Fin 1) i j) := by
  rw [multiReduction_minimumf_eq_fold]
  refine (Finset.le_fold_min (b := (Ideal.ofBits .f32 acc : EReal)) (f := fun x => (src x : EReal)) z).trans ?_
  rw [htop]
  constructor
  · rintro ⟨-, hx⟩ i j
    exact hx _ (Finset.mem_filter.2 ⟨Finset.mem_univ _, (eq_ix1_zero _)⟩)
  · intro hx
    refine ⟨le_top, fun x _ => ?_⟩
    obtain ⟨i, j, rfl⟩ := eq_ix3_zero x
    exact hx i j

/-- The maximum of a whole [1, a, b] tile, taken from -∞, is below a number iff every entry is. -/
theorem maxAll_le_iff {a b : ℕ} (src : FVec Ideal (⟨3, ![1, a, b]⟩ : Shape) .f32) (acc : BitVec 32)
    (h : (⟨3, ![1, a, b]⟩ : Shape).Reduces [1, 2] ⟨1, ![1]⟩) (hφ : FKind.Formats .f32)
    (hacc : acc = FKind.maximumf.neutral .f32 hφ) (hbot : Ideal.ofBits .f32 acc = (⊥ : EReal)) (z : EReal) :
    multiReduction .maximumf [1, 2] (⟨1, ![1]⟩ : Shape) src acc h hφ hacc (ix1 (0 : Fin 1)) ≤ z
      ↔ ∀ (i : Fin a) (j : Fin b), src (ix3 (0 : Fin 1) i j) ≤ z := by
  rw [multiReduction_maximumf_eq_fold]
  refine (Finset.fold_max_le (b := (Ideal.ofBits .f32 acc : EReal)) (f := fun x => (src x : EReal)) z).trans ?_
  rw [hbot]
  constructor
  · rintro ⟨-, hx⟩ i j
    exact hx _ (Finset.mem_filter.2 ⟨Finset.mem_univ _, (eq_ix1_zero _)⟩)
  · intro hx
    refine ⟨bot_le, fun x _ => ?_⟩
    obtain ⟨i, j, rfl⟩ := eq_ix3_zero x
    exact hx i j

/-- The f32 word of +∞ denotes the top of the extended reals, and that of -∞ the bottom. -/
theorem pinf32_eq_top : Ideal.ofBits .f32 0x7F800000#32 = (⊤ : EReal) := by
  simp [Ideal.ofBits, Ideal.ieee]

theorem ninf32_eq_bot : Ideal.ofBits .f32 0xFF800000#32 = (⊥ : EReal) := by
  simp [Ideal.ofBits, Ideal.ieee]

end Cert.LibTileExtrema

end
-- ==== Proof.Rescale.lean ====
/-
  The last grid's value: it multiplies each row tile of the rectified array by the ONE entry of a [1,1] scale
  array and writes the tile back to the same rows of the result. Point `t` of its ten points holds rows
  `t·10000 … t·10000 + 9999`; the tiles are disjoint and fill the array, so after the grid the result array is,
  entry by entry, `R i · s (0,0)` of the two arrays `R`, `s` the grid was entered with.
-/
import proofs.«154679_j31396210934417_1_alg».proof.Proof.Gen.KernelIdeal.Frame
import proofs.«154679_j31396210934417_1_alg».proof.Proof.LibTileExtrema
import Idealize.ShloMosaic.Lib.Pipeline.Value
import Idealize.ShloMosaic.Lib.ValueIdx
import Idealize.ShloMosaic.PureOps.Ideal

noncomputable section

namespace Cert.KernelIdeal.Rescale

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The rectified [100000,128] array as the grid finds it. -/
abbrev arrRect (c : Dev nD) : S100000x128.Idx → EReal := V c main_v44_0
/-- The [1,1] scale as the grid finds it. -/
abbrev arrScale (c : Dev nD) : S1x1.Idx → EReal := V c main_v47
/-- The result array after the grid's ten points. -/
abbrev arrOut (c : Dev nD) : S100000x128.Idx → EReal := (dat2 (F := Ideal) V c).arrAt 2 cfg2.N

/-- Every entry times the one scale entry. -/
def scaled (R : S100000x128.Idx → EReal) (s : S1x1.Idx → EReal) : S100000x128.Idx → EReal :=
  fun i => R i * s (ix2 0 0)

theorem hz : (![0, 0] : Fin 2 → Nat) = fun _ => 0 := funext fun a => by fin_cases a <;> rfl

/-- The body's product at an entry of the tile: the tile's entry times the scale's one entry. -/
theorem pay_apply (x0 : Vec Ideal S1x1 .f32) (x4 : Vec Ideal S10000x128 .f32) (p : Fin 10000) (q : Fin 128) :
    k2_pay1 x0 x4 (ix2 p q) = x4 (ix2 p q) * x0 (ix2 0 0) := by
  unfold k2_pay1
  rw [mulf_apply, shapeCast_self, shapeCast_self, shapeCast_self]
  exact congrArg (x4 (ix2 p q) * ·) (Cert.LibTileExtrema.broadcastTo_11_ab_apply x0 _ p q)

/-- The printed index maps over the grid: the input tile moves with the output tile, the scale's block stays at
    the origin, and the output tile of point `t` is row block `t`. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `scaled` of the arrays as the grid finds them. -/
theorem flushed_eq (c : Dev nD) (t : Fin cfg2.N) :
    (dat2 (F := Ideal) V c).flushed 2 t
      = ((cfg2.win 2).blk t).view.read (Elt Ideal) (scaled (arrRect V c) (arrScale V c)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk2 V c 1 t) (iblk2 V c 0 t) p q).trans ?_
  show arrRect V c (((cfg2.win 0).blk t).view.emb (ix2 p q)) * arrScale V c (((cfg2.win 1).blk t).view.emb (ix2 0 0))
    = arrRect V c (((cfg2.win 2).blk t).view.emb (ix2 p q)) * arrScale V c (ix2 0 0)
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  have h1 : ((cfg2.win 1).blk t).view.emb (ix2 (0 : Fin 1) (0 : Fin 1)) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  rw [h0, h1]

/-- An index of the result array is in point `t`'s block iff each coordinate is in the block's range. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- Every index of the result array is in the block of the point its row falls in. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_2 _, ?_⟩
  rw [mem_blk]
  obtain ⟨e0, e1, e2, e3, e4, e5⟩ := idx_facts ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [e5]; omega

/-- THE RESULT ARRAY after the grid: every rectified entry times the scale. -/
theorem out_eq (c : Dev nD) : arrOut V c = scaled (arrRect V c) (arrScale V c) :=
  (dat2 (F := Ideal) V c).arrAt_eq_of_cover 2 (scaled (arrRect V c) (arrScale V c))
    (fun t _ => flushed_eq V c t) cover

end Cert.KernelIdeal.Rescale

end
-- ==== Proof.RegionArrays.lean ====
/-
  The arrays the first two grids read and write, named at the buffer contents V the grids are entered with: the dense
  [100000,128] input, the [1,128] mean and reciprocal-deviation rows, and each grid's output arrays after its ten
  points; and the normalized, rectified entry max((x - mean)·inv, 0) the second grid computes.
-/
import proofs.«154679_j31396210934417_1_alg».proof.Proof.Gen.KernelIdeal.Frame
import Idealize.ShloMosaic.PureOps.Ideal
import Idealize.ShloMosaic.Lib.ValueIdx

noncomputable section

namespace Cert.KernelIdeal.RegionValues

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The dense [100000,128] array as a region finds it. -/
abbrev arrX (c : Dev nD) : S100000x128.Idx → EReal := V c main_v31
/-- The [1,128] mean row as region 1 finds it. -/
abbrev arrMean (c : Dev nD) : S1x128.Idx → EReal := V c main_v34
/-- The [1,128] reciprocal-deviation row as region 1 finds it. -/
abbrev arrInv (c : Dev nD) : S1x128.Idx → EReal := V c main_v43
/-- Region 0's two output arrays after its ten points. -/
abbrev sums (c : Dev nD) : S1x128.Idx → EReal := (dat0 (F := Ideal) V c).arrAt 1 cfg0.N
abbrev sumsqs (c : Dev nD) : S1x128.Idx → EReal := (dat0 (F := Ideal) V c).arrAt 2 cfg0.N
/-- Region 1's two output arrays after its ten points. -/
abbrev rects (c : Dev nD) : S100000x128.Idx → EReal := (dat1 (F := Ideal) V c).arrAt 3 cfg1.N
abbrev rectTotal (c : Dev nD) : S1x1.Idx → EReal := (dat1 (F := Ideal) V c).arrAt 4 cfg1.N

/-- The normalized, rectified entry as region 1 computes it from its three input arrays. -/
def rectified (c : Dev nD) (i : S100000x128.Idx) : EReal :=
  max ((arrX V c i - arrMean V c (ix2 0 (i 1))) * arrInv V c (ix2 0 (i 1))) 0

end Cert.KernelIdeal.RegionValues

end
-- ==== Proof.StatsPieces.lean ====
/-
  What each control case of the statistics grid's body leaves in its two accumulator buffers, as arithmetic terms of
  the point's input tile and of what the buffers held: at the first point the zero row plus the tile's column sums
  (column sums of squares); at every later point the running row plus them.
-/
import proofs.«154679_j31396210934417_1_alg».proof.Proof.Gen.KernelIdeal.Frame
import Idealize.ShloMosaic.Lib.Pipeline.Value
import Idealize.ShloMosaic.Lib.Tactic

noncomputable section

namespace Cert.KernelIdeal.RegionValues

open Idealize.ShloMosaic Idealize.ShloMosaic.TcCoe Idealize.ShloMosaic.Tactic Idealize.SL.Sem
open Cert.KernelIdeal Cert.KernelIdeal.Gen

variable {F : FTy → Type} [FloatOps F]

/-- A rank-2 offset of zeros is the zero offset. -/
theorem offs_zero2 : (![0, 0] : Fin 2 → Nat) = fun _ => 0 := funext fun a => by fin_cases a <;> rfl

/-- A later point leaves, in the first accumulator, the running row plus the tile's column sums. -/
theorem stats_later_sum (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x0 : Vec F S10000x128 .f32) (xo1 xo2 : Vec F S1x128 .f32) :
    out0_B_1 c i a1 h1 a2 h2 a3 h3 hc x0 xo1 xo2 = k0_pay4 x0 xo1 := by
  unfold out0_B_1
  rw [View.read_writes_eq_canon _ _ _ (cover0_B_1 c i a1 h1 a2 h2 a3 h3 hc x0 xo1 xo2)]
  unfold kernelRun0_B
  dsimp only
  rw [View.canon_unit_zero offs_zero2]
  simp only [View.readAt_eq_ld, h1.read_unread, h2.read_unread, View.ld_unit_zero (S := S10000x128) offs_zero2,
    View.ld_unit_zero (S := S1x128) offs_zero2]

/-- A later point leaves, in the second accumulator, the running row plus the tile's column sums of squares. -/
theorem stats_later_sumsq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond0_0 i) (x0 : Vec F S10000x128 .f32) (xo1 xo2 : Vec F S1x128 .f32) :
    out0_B_2 c i a1 h1 a2 h2 a3 h3 hc x0 xo1 xo2 = k0_pay5 x0 xo2 := by
  unfold out0_B_2
  rw [View.read_writes_eq_canon _ _ _ (cover0_B_2 c i a1 h1 a2 h2 a3 h3 hc x0 xo1 xo2)]
  unfold kernelRun0_B
  dsimp only
  rw [View.canon_unit_zero offs_zero2]
  simp only [View.readAt_eq_ld, h1.read_unread, h3.read_unread, View.ld_unit_zero (S := S10000x128) offs_zero2,
    View.ld_unit_zero (S := S1x128) offs_zero2]

/-- The first point stores the zero row, reads it back, and leaves it plus the tile's column sums. -/
theorem stats_first_sum (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x0 : Vec F S10000x128 .f32) :
    out0_A_1 c i a1 h1 a2 h2 a3 h3 hc x0 = k0_pay4 x0 k0_pay1 := by
  unfold out0_A_1
  rw [View.read_writes_eq_canon _ _ _ (cover0_A_1 c i a1 h1 a2 h2 a3 h3 hc x0)]
  unfold kernelRun0_A
  dsimp only
  sl_unfold_words
  rw [View.canon_cons_unit_zero (S := S1x128) offs_zero2, View.readCov_unit_zero (S := S1x128) _ offs_zero2]
  simp only [View.readAt_eq_ld, h1.read_unread, View.ld_unit_zero (S := S10000x128) offs_zero2]

/-- The first point stores the zero row, reads it back, and leaves it plus the tile's column sums of squares. -/
theorem stats_first_sumsq (c : Dev nD) (i : grid0.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond0_0 i) (x0 : Vec F S10000x128 .f32) :
    out0_A_2 c i a1 h1 a2 h2 a3 h3 hc x0 = k0_pay5 x0 k0_pay2 := by
  unfold out0_A_2
  rw [View.read_writes_eq_canon _ _ _ (cover0_A_2 c i a1 h1 a2 h2 a3 h3 hc x0)]
  unfold kernelRun0_A
  dsimp only
  sl_unfold_words
  rw [View.canon_cons_unit_zero (S := S1x128) offs_zero2, View.readCov_unit_zero (S := S1x128) _ offs_zero2]
  simp only [View.readAt_eq_ld, h1.read_unread, View.ld_unit_zero (S := S10000x128) offs_zero2]

end Cert.KernelIdeal.RegionValues

end
-- ==== Proof.LibFirstAxisSum.lean ====
/-
  A sum of an [a, b] array along its FIRST axis, read at a coordinate: started from the neutral element it is, at
  column q, the plain sum over k < a of the array at (k, q).
-/
import Idealize.ShloMosaic.PureOps.Ideal.Laws
import Idealize.ShloMosaic.Lib.ValueIdx

noncomputable section

namespace Cert.AxisSums

open Idealize.ShloMosaic Idealize.ShloMosaic.ValueIdx

/-- The source index above column q with k on the summed first axis is (k, q). -/
theorem lift_first {a b : ℕ} (h : (⟨2, ![a, b]⟩ : Shape).Reduces [0] ⟨1, ![b]⟩) (q : Fin b) (k : Fin a) :
    h.lift (ix1 q) k = ix2 k q := by
  funext d; apply Fin.ext
  show h.liftVal (ix1 q) k.val d = (ix2 k q d).val
  unfold Shape.Reduces.liftVal
  match d with
  | ⟨0, _⟩ => rfl
  | ⟨1, _⟩ => rfl

/-- A sum of an [a, b] array along its first axis, from the neutral element, at q: the sum over k of the array at
    (k, q). -/
theorem sum_first_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] (⟨1, ![b]⟩ : Shape) src acc h hφ hacc (ix1 q) = ∑ k : Fin a, src (ix2 k q) :=
  (Ideal.multiReduction_add_single src acc h hφ hacc (ix1 q)).trans
    (Finset.sum_congr rfl fun k _ => congrArg src (lift_first h q k))

end Cert.AxisSums

end
-- ==== Proof.StatsPayload.lean ====
/-
  The statistics grid's arithmetic, read at a column over the extended reals: the accumulator row plus the tile's
  column sum (column sum of squares), and the zero row the first point starts from.
-/
import proofs.«154679_j31396210934417_1_alg».proof.Proof.Gen.KernelIdeal.Skeleton
import proofs.«154679_j31396210934417_1_alg».proof.Proof.LibFirstAxisSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValues

open Idealize.ShloMosaic Idealize.ShloMosaic.ValueIdx
open Cert.KernelIdeal Cert.KernelIdeal.Gen

/-- The zero row of the first accumulator reads 0 everywhere. -/
theorem zero_row1_apply (j : S1x128.Idx) : (k0_pay1 (F := Ideal)) j = 0 := by
  unfold k0_pay1
  exact Ideal.ofBits_zero_f32

/-- The zero row of the second accumulator reads 0 everywhere. -/
theorem zero_row2_apply (j : S1x128.Idx) : (k0_pay2 (F := Ideal)) j = 0 := by
  unfold k0_pay2
  exact Ideal.ofBits_zero_f32

/-- The first accumulator's new row at column q: the old row there plus the sum of the tile's column q. -/
theorem acc_sum_apply (x0 : Vec Ideal S10000x128 .f32) (xo : Vec Ideal S1x128 .f32) (u : Fin 1) (q : Fin 128) :
    k0_pay4 x0 xo (ix2 u q) = xo (ix2 u q) + ∑ r : Fin 10000, x0 (ix2 r q) := by
  unfold k0_pay4 k0_pay3
  dsimp only
  refine (addf_apply _ _ _).trans (congrArg₂ (· + ·) ?_ ?_)
  · exact congrFun (shapeCast_self xo _) _
  · refine (shapeCast_a_1a_apply _ _ u q).trans ?_
    refine (Cert.AxisSums.sum_first_apply _ _ _ _ _ q).trans ?_
    exact Finset.sum_congr rfl fun k _ => congrFun (shapeCast_self x0 _) _

/-- The second accumulator's new row at column q: the old row there plus the sum of the squares of the tile's
    column q. -/
theorem acc_sumsq_apply (x0 : Vec Ideal S10000x128 .f32) (xo : Vec Ideal S1x128 .f32) (u : Fin 1) (q : Fin 128) :
    k0_pay5 x0 xo (ix2 u q) = xo (ix2 u q) + ∑ r : Fin 10000, x0 (ix2 r q) * x0 (ix2 r q) := by
  unfold k0_pay5 k0_pay3
  dsimp only
  refine (addf_apply _ _ _).trans (congrArg₂ (· + ·) ?_ ?_)
  · exact congrFun (shapeCast_self xo _) _
  · refine (shapeCast_a_1a_apply _ _ u q).trans ?_
    refine (Cert.AxisSums.sum_first_apply _ _ _ _ _ q).trans ?_
    refine Finset.sum_congr rfl fun k _ => (mulf_apply _ _ _).trans ?_
    exact congrArg₂ (· * ·) (congrFun (shapeCast_self x0 _) _) (congrFun (shapeCast_self x0 _) _)

end Cert.KernelIdeal.RegionValues

end
-- ==== Proof.StatsBlocks.lean ====
/-
  The statistics grid's input tile at point t is rows 10000·t … 10000·t + 9999 of the dense array, all 128 columns.
-/
import proofs.«154679_j31396210934417_1_alg».proof.Proof.Gen.KernelIdeal.Frame
import Idealize.ShloMosaic.Lib.Pipeline.Value
import Idealize.ShloMosaic.Lib.ValueIdx

noncomputable section

namespace Cert.KernelIdeal.RegionValues

open Idealize.ShloMosaic Idealize.ShloMosaic.TcCoe Idealize.ShloMosaic.ValueIdx Idealize.SL.Sem
open Cert.KernelIdeal Cert.KernelIdeal.Gen

variable {F : FTy → Type} [FloatOps F]
variable (V : (c : Dev nD) → (b : Ref sig .tc) → Buf (Elt F) ((c : Thread nD τ).loc b))

/-- The tile's block index at point t is (t, 0): decided over the ten points. -/
theorem stats_tile_index : ∀ t : Fin cfg0.N, win0_0.index t 0 = t.val ∧ win0_0.index t 1 = 0 :=
  (by decide +kernel : ∀ t : Fin grid0.N, win0_0.index t 0 = t.val ∧ win0_0.index t 1 = 0)

/-- Entry (r, q) of the tile at point t is entry (10000·t + r, q) of the array. -/
theorem stats_tile_apply (c : Dev nD) (t : Fin cfg0.N) (r : Fin 10000) (q : Fin 128) (k : S100000x128.Idx)
    (hk0 : (k 0).val = t.val * 10000 + r.val) (hk1 : (k 1).val = q.val) :
    (iblk0 V c 0 t : Vec F S10000x128 .f32) (ix2 r q) = (V c main_v31 : S100000x128.Idx → Elt F .f32) k := by
  unfold iblk0
  rw [View.read_apply]
  show V c main_v31 _ = V c main_v31 _
  congr 1
  funext a
  apply Fin.ext
  match a with
  | ⟨0, _⟩ => show win0_0.index t 0 * 10000 + 1 * r.val = (k 0).val; rw [(stats_tile_index t).1, hk0]; omega
  | ⟨1, _⟩ => show win0_0.index t 1 * 128 + 1 * q.val = (k 1).val; rw [(stats_tile_index t).2, hk1]; omega

end Cert.KernelIdeal.RegionValues

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.ColumnSums.lean ====
/-
  The statistics grid, summed up: after point n each accumulator holds, at column q, the sum (sum of squares) of the
  array's column q over the first (n+1)·10000 rows — the first point starts from the zero row, every later point adds
  its tile's column sums to what the point before left —, so after the tenth point it holds the whole column's sum.
  Each accumulator's window has one block, the whole [1,128] array, written back after the last point: the output
  arrays end holding the column sums and the column sums of squares of the dense array.
-/
import proofs.«154679_j31396210934417_1_alg».proof.Proof.Gen.KernelIdeal.Frame
import proofs.«154679_j31396210934417_1_alg».proof.Proof.RegionArrays
import proofs.«154679_j31396210934417_1_alg».proof.Proof.StatsPieces
import proofs.«154679_j31396210934417_1_alg».proof.Proof.StatsPayload
import proofs.«154679_j31396210934417_1_alg».proof.Proof.StatsBlocks
import proofs.«154679_j31396210934417_1_alg».proof.Proof.LibERealStats
import Idealize.ShloMosaic.Lib.Pipeline.Value

noncomputable section

namespace Cert.KernelIdeal.RegionValues

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Column q of the dense array by natural row number (zero past the last row). -/
def colAt (c : Dev nD) (q : Fin 128) (n : ℕ) : EReal :=
  if h : n < 100000 then arrX V c (ix2 ⟨n, h⟩ q) else 0

theorem colAt_fin (c : Dev nD) (q : Fin 128) (i : Fin 100000) : colAt V c q i.val = arrX V c (ix2 i q) :=
  dif_pos i.isLt

/-- Entry (r, q) of the tile at point t is the array's column q at row 10000·t + r. -/
theorem tile_col (c : Dev nD) (t : Fin cfg0.N) (r : Fin 10000) (q : Fin 128) :
    (iblk0 V c 0 t : Vec Ideal S10000x128 .f32) (ix2 r q) = colAt V c q (t.val * 10000 + r.val) := by
  have hN : t.val < 10 := lt_of_lt_of_eq t.isLt (show cfg0.N = 10 from N_0)
  have hlt : t.val * 10000 + r.val < 100000 := by have := r.isLt; omega
  unfold colAt
  rw [dif_pos hlt]
  exact stats_tile_apply V c t r q _ rfl rfl

/-! ## One point -/

/-- The first point leaves the tile's column sums. -/
theorem sum_first_point (c : Dev nD) (t : Fin cfg0.N) (h0 : t.val % 10 = 0) (u : Fin 1) (q : Fin 128) :
    (outsAt0 V c t.val t.isLt).1 (ix2 u q) = ∑ r : Fin 10000, colAt V c q (t.val * 10000 + r.val) := by
  rw [outsAt0_A V c t h0]
  dsimp only
  refine (congrFun (stats_first_sum (F := Ideal) c (grid0.coords t) (ms0_0 t) (hs0_0 t) (ms0_1 t) (hs0_1 t) (ms0_2 t)
    (hs0_2 t) ((hcond0_0 t).mpr h0) (iblk0 V c 0 t)) (ix2 u q)).trans ?_
  refine (acc_sum_apply (iblk0 V c 0 t) (k0_pay1 (F := Ideal)) u q).trans ?_
  rw [zero_row1_apply, zero_add]
  exact Finset.sum_congr rfl fun r _ => tile_col V c t r q

/-- The first point leaves the tile's column sums of squares. -/
theorem sumsq_first_point (c : Dev nD) (t : Fin cfg0.N) (h0 : t.val % 10 = 0) (u : Fin 1) (q : Fin 128) :
    (outsAt0 V c t.val t.isLt).2 (ix2 u q)
      = ∑ r : Fin 10000, colAt V c q (t.val * 10000 + r.val) * colAt V c q (t.val * 10000 + r.val) := by
  rw [outsAt0_A V c t h0]
  dsimp only
  refine (congrFun (stats_first_sumsq (F := Ideal) c (grid0.coords t) (ms0_0 t) (hs0_0 t) (ms0_1 t) (hs0_1 t) (ms0_2 t)
    (hs0_2 t) ((hcond0_0 t).mpr h0) (iblk0 V c 0 t)) (ix2 u q)).trans ?_
  refine (acc_sumsq_apply (iblk0 V c 0 t) (k0_pay2 (F := Ideal)) u q).trans ?_
  rw [zero_row2_apply, zero_add]
  exact Finset.sum_congr rfl fun r _ => by rw [tile_col V c t r q]

/-- A later point adds its tile's column sums to what the point before left. -/
theorem sum_later_point (c : Dev nD) (t : Fin cfg0.N) (h0 : ¬t.val % 10 = 0) (u : Fin 1) (q : Fin 128) :
    (outsAt0 V c t.val t.isLt).1 (ix2 u q)
      = (outsAt0 V c (t.val - 1) (Nat.lt_of_le_of_lt (Nat.sub_le _ _) t.isLt)).1 (ix2 u q)
        + ∑ r : Fin 10000, colAt V c q (t.val * 10000 + r.val) := by
  rw [outsAt0_B V c t h0]
  dsimp only
  refine (congrFun (stats_later_sum (F := Ideal) c (grid0.coords t) (ms0_0 t) (hs0_0 t) (ms0_1 t) (hs0_1 t) (ms0_2 t)
    (hs0_2 t) (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix2 u q)).trans ?_
  refine (acc_sum_apply (iblk0 V c 0 t) (outsAt0 V c (t.val - 1) (Nat.lt_of_le_of_lt (Nat.sub_le _ _) t.isLt)).1 u q).trans ?_
  exact congrArg _ (Finset.sum_congr rfl fun r _ => tile_col V c t r q)

/-- A later point adds its tile's column sums of squares to what the point before left. -/
theorem sumsq_later_point (c : Dev nD) (t : Fin cfg0.N) (h0 : ¬t.val % 10 = 0) (u : Fin 1) (q : Fin 128) :
    (outsAt0 V c t.val t.isLt).2 (ix2 u q)
      = (outsAt0 V c (t.val - 1) (Nat.lt_of_le_of_lt (Nat.sub_le _ _) t.isLt)).2 (ix2 u q)
        + ∑ r : Fin 10000, colAt V c q (t.val * 10000 + r.val) * colAt V c q (t.val * 10000 + r.val) := by
  rw [outsAt0_B V c t h0]
  dsimp only
  refine (congrFun (stats_later_sumsq (F := Ideal) c (grid0.coords t) (ms0_0 t) (hs0_0 t) (ms0_1 t) (hs0_1 t) (ms0_2 t)
    (hs0_2 t) (fun h => h0 ((hcond0_0 t).mp h)) (iblk0 V c 0 t)
    (outsAt0 V c (t.val - 1) (Nat.lt_of_le_of_lt (Nat.sub_le _ _) t.isLt)).1
    (outsAt0 V c (t.val - 1) (Nat.lt_of_le_of_lt (Nat.sub_le _ _) t.isLt)).2) (ix2 u q)).trans ?_
  refine (acc_sumsq_apply (iblk0 V c 0 t) (outsAt0 V c (t.val - 1) (Nat.lt_of_le_of_lt (Nat.sub_le _ _) t.isLt)).2 u q).trans ?_
  exact congrArg _ (Finset.sum_congr rfl fun r _ => by rw [tile_col V c t r q])

/-! ## All points -/

/-- After point n the first accumulator holds, at column q, the sum over the first n+1 tiles. -/
theorem sums_after (c : Dev nD) (u : Fin 1) (q : Fin 128) : ∀ (n : ℕ) (h : n < cfg0.N),
    (outsAt0 V c n h).1 (ix2 u q) = ∑ t ∈ Finset.range (n + 1), ∑ r : Fin 10000, colAt V c q (t * 10000 + r.val)
  | 0, h => by
    rw [Finset.sum_range_one]
    exact sum_first_point V c ⟨0, h⟩ rfl u q
  | n + 1, h => by
    have hN : cfg0.N = 10 := N_0
    have hB : ¬(⟨n + 1, h⟩ : Fin cfg0.N).val % 10 = 0 := by dsimp only; omega
    rw [Finset.sum_range_succ, ← sums_after c u q n (Nat.lt_of_succ_lt h)]
    exact sum_later_point V c ⟨n + 1, h⟩ hB u q

/-- After point n the second accumulator holds, at column q, the sum of squares over the first n+1 tiles. -/
theorem sumsqs_after (c : Dev nD) (u : Fin 1) (q : Fin 128) : ∀ (n : ℕ) (h : n < cfg0.N),
    (outsAt0 V c n h).2 (ix2 u q)
      = ∑ t ∈ Finset.range (n + 1), ∑ r : Fin 10000, colAt V c q (t * 10000 + r.val) * colAt V c q (t * 10000 + r.val)
  | 0, h => by
    rw [Finset.sum_range_one]
    exact sumsq_first_point V c ⟨0, h⟩ rfl u q
  | n + 1, h => by
    have hN : cfg0.N = 10 := N_0
    have hB : ¬(⟨n + 1, h⟩ : Fin cfg0.N).val % 10 = 0 := by dsimp only; omega
    rw [Finset.sum_range_succ, ← sumsqs_after c u q n (Nat.lt_of_succ_lt h)]
    exact sumsq_later_point V c ⟨n + 1, h⟩ hB u q

/-- The column sums of the dense array, as a [1,128] row. -/
def colTotals (c : Dev nD) : S1x128.Idx → EReal := fun j => ∑ r : Fin 100000, arrX V c (ix2 r (j 1))
/-- The column sums of squares of the dense array, as a [1,128] row. -/
def colSqTotals (c : Dev nD) : S1x128.Idx → EReal :=
  fun j => ∑ r : Fin 100000, arrX V c (ix2 r (j 1)) * arrX V c (ix2 r (j 1))

/-- After the last point the first accumulator holds the column sums. -/
theorem sums_last (c : Dev nD) : (outsAt0 V c t0_9.val t0_9.isLt).1 = colTotals V c := by
  funext j
  obtain ⟨u, q, rfl⟩ : ∃ (u : Fin 1) (q : Fin 128), j = ix2 u q := ⟨j 0, j 1, eq_ix2 j⟩
  refine (sums_after V c u q 9 t0_9.isLt).trans ?_
  rw [Finset.sum_range (fun t => ∑ r : Fin 10000, colAt V c q (t * 10000 + r.val))]
  refine (Cert.LibERealStats.sum_tiles_of_eq 10 10000 100000 rfl (colAt V c q)).trans ?_
  exact Finset.sum_congr rfl fun i _ => colAt_fin V c q i

/-- After the last point the second accumulator holds the column sums of squares. -/
theorem sumsqs_last (c : Dev nD) : (outsAt0 V c t0_9.val t0_9.isLt).2 = colSqTotals V c := by
  funext j
  obtain ⟨u, q, rfl⟩ : ∃ (u : Fin 1) (q : Fin 128), j = ix2 u q := ⟨j 0, j 1, eq_ix2 j⟩
  refine (sumsqs_after V c u q 9 t0_9.isLt).trans ?_
  rw [Finset.sum_range (fun t => ∑ r : Fin 10000, colAt V c q (t * 10000 + r.val) * colAt V c q (t * 10000 + r.val))]
  refine (Cert.LibERealStats.sum_tiles_of_eq 10 10000 100000 rfl (fun n => colAt V c q n * colAt V c q n)).trans ?_
  exact Finset.sum_congr rfl fun i _ => by rw [colAt_fin V c q i]

end Cert.KernelIdeal.RegionValues

end
-- ==== Proof.ColumnSumsArray.lean ====
/-
  The statistics grid's two output arrays. Each accumulator's window has one block, the whole [1,128] array, written
  back once, after the last point; what the last point left there is the column sums (the column sums of squares) of
  the dense array, so that is what the array ends holding.
-/
import proofs.«154679_j31396210934417_1_alg».proof.Proof.ColumnSums
import Idealize.ShloMosaic.Lib.Pipeline.Value

noncomputable section

namespace Cert.KernelIdeal.RegionValues

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The one write-back of the first accumulator, after the last point, writes the column sums: its block is the
    whole [1,128] array. -/
theorem flushed_sums (c : Dev nD) (t : Fin cfg0.N) (hf : (cfg0.win 1).flush t = true) :
    (dat0 V c).flushed 1 t = ((cfg0.win 1).blk t).view.read (Elt Ideal) (colTotals V c) := by
  have hN : cfg0.N = 10 := N_0
  have h9 : t.val = 9 := by have := (flush0_1 t).mp hf; have := t.isLt; omega
  obtain rfl : t = t0_9 := Fin.ext h9
  show (cfg0.win 1).cut (grid0.coords t0_9) ((dat0 V c).after 1 t0_9) = _
  rw [after0_1, sums_last]
  have hz' : (fun a => win0_1.index t0_9 a * main_v32_0.ty.shape.size a) = fun _ => 0 :=
    funext fun a => by fin_cases a <;> decide
  exact (Memref.read_access_unit_zero (Elt Ideal) main_v32_0 hz' (fun a => by rw [congrFun hz' a]; simp) (colTotals V c)).symm

/-- So the array ends holding them: the last point's block covers it. -/
theorem sums_array (c : Dev nD) : (dat0 V c).arrAt 1 cfg0.N = colTotals V c :=
  (dat0 V c).arrAt_eq_of_cover 1 (colTotals V c) (flushed_sums V c) fun i =>
    ⟨t0_9, (flush0_1 t0_9).mpr rfl, by
      show i ∈ ((View.whole main_v32_0).slice (win0_1.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_1.index t0_9 0 * win0_1.size 0 ≤ (i 0 : Nat)
          ∧ (i 0 : Nat) < win0_1.index t0_9 0 * win0_1.size 0 + win0_1.xsize (grid0.coords t0_9) 0
        rw [show win0_1.index t0_9 0 * win0_1.size 0 = 0 from by decide +kernel,
          show win0_1.xsize (grid0.coords t0_9) 0 = 1 from by decide +kernel]
        omega
      | ⟨1, _⟩ =>
        show win0_1.index t0_9 1 * win0_1.size 1 ≤ (i 1 : Nat)
          ∧ (i 1 : Nat) < win0_1.index t0_9 1 * win0_1.size 1 + win0_1.xsize (grid0.coords t0_9) 1
        rw [show win0_1.index t0_9 1 * win0_1.size 1 = 0 from by decide +kernel,
          show win0_1.xsize (grid0.coords t0_9) 1 = 128 from by decide +kernel]
        omega⟩

/-- The one write-back of the second accumulator, after the last point, writes the column sums of squares: its block is the
    whole [1,128] array. -/
theorem flushed_sumsqs (c : Dev nD) (t : Fin cfg0.N) (hf : (cfg0.win 2).flush t = true) :
    (dat0 V c).flushed 2 t = ((cfg0.win 2).blk t).view.read (Elt Ideal) (colSqTotals V c) := by
  have hN : cfg0.N = 10 := N_0
  have h9 : t.val = 9 := by have := (flush0_2 t).mp hf; have := t.isLt; omega
  obtain rfl : t = t0_9 := Fin.ext h9
  show (cfg0.win 2).cut (grid0.coords t0_9) ((dat0 V c).after 2 t0_9) = _
  rw [after0_2, sumsqs_last]
  have hz' : (fun a => win0_2.index t0_9 a * main_v32_1.ty.shape.size a) = fun _ => 0 :=
    funext fun a => by fin_cases a <;> decide
  exact (Memref.read_access_unit_zero (Elt Ideal) main_v32_1 hz' (fun a => by rw [congrFun hz' a]; simp) (colSqTotals V c)).symm

/-- So the array ends holding them: the last point's block covers it. -/
theorem sumsqs_array (c : Dev nD) : (dat0 V c).arrAt 2 cfg0.N = colSqTotals V c :=
  (dat0 V c).arrAt_eq_of_cover 2 (colSqTotals V c) (flushed_sumsqs V c) fun i =>
    ⟨t0_9, (flush0_2 t0_9).mpr rfl, by
      show i ∈ ((View.whole main_v32_1).slice (win0_2.rect t0_9)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index t0_9 0 * win0_2.size 0 ≤ (i 0 : Nat)
          ∧ (i 0 : Nat) < win0_2.index t0_9 0 * win0_2.size 0 + win0_2.xsize (grid0.coords t0_9) 0
        rw [show win0_2.index t0_9 0 * win0_2.size 0 = 0 from by decide +kernel,
          show win0_2.xsize (grid0.coords t0_9) 0 = 1 from by decide +kernel]
        omega
      | ⟨1, _⟩ =>
        show win0_2.index t0_9 1 * win0_2.size 1 ≤ (i 1 : Nat)
          ∧ (i 1 : Nat) < win0_2.index t0_9 1 * win0_2.size 1 + win0_2.xsize (grid0.coords t0_9) 1
        rw [show win0_2.index t0_9 1 * win0_2.size 1 = 0 from by decide +kernel,
          show win0_2.xsize (grid0.coords t0_9) 1 = 128 from by decide +kernel]
        omega⟩

/-- Region 0 (the statistics grid): after its ten points, output window 1's array holds the column sums of the
    input array as the region found it. -/
theorem colsum (c : Dev nD) (j : S1x128.Idx) :
    sums V c j = ∑ r : Fin 100000, arrX V c (ix2 r (j 1)) :=
  congrFun (sums_array V c) j

/-- ... and output window 2's array the column sums of squares. -/
theorem colsumsq (c : Dev nD) (j : S1x128.Idx) :
    sumsqs V c j = ∑ r : Fin 100000, arrX V c (ix2 r (j 1)) * arrX V c (ix2 r (j 1)) :=
  congrFun (sumsqs_array V c) j

end Cert.KernelIdeal.RegionValues

end
-- ==== Proof.NormPieces.lean ====
/-
  What each control case of the normalize-and-rectify grid's body leaves in its two output buffers, as arithmetic
  terms of the point's input tile, the mean and reciprocal-deviation rows, and what the total's buffer held: the
  rectified tile in both cases; the total of its squares added to the zero entry at the first point and to the
  running entry at every later point.
-/
import proofs.«154679_j31396210934417_1_alg».proof.Proof.Gen.KernelIdeal.Frame
import proofs.«154679_j31396210934417_1_alg».proof.Proof.StatsPieces
import Idealize.ShloMosaic.Lib.Pipeline.Value
import Idealize.ShloMosaic.Lib.Tactic

noncomputable section

namespace Cert.KernelIdeal.RegionValues

open Idealize.ShloMosaic Idealize.ShloMosaic.TcCoe Idealize.ShloMosaic.Tactic Idealize.SL.Sem
open Cert.KernelIdeal Cert.KernelIdeal.Gen

variable {F : FTy → Type} [FloatOps F]

/-- The first point leaves the rectified tile in the tile output. -/
theorem norm_first_tile (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S10000x128 .f32) (h4 : a4.IsWhole) (a5 : Memref sig .tc .vmem S1x1 .f32) (h5 : a5.IsWhole)
    (hc : cond1_0 i) (x0 : Vec F S10000x128 .f32) (x1 x2 : Vec F S1x128 .f32) :
    out1_A_3 c i a1 h1 a2 h2 a3 h3 a4 h4 a5 h5 hc x0 x1 x2 = k1_pay2 x0 x1 x2 := by
  unfold out1_A_3
  rw [View.read_writes_eq_canon _ _ _ (cover1_A_3 c i a1 h1 a2 h2 a3 h3 a4 h4 a5 h5 hc x0 x1 x2)]
  unfold kernelRun1_A
  dsimp only
  rw [View.canon_unit_zero offs_zero2]
  simp only [View.readAt_eq_ld, h1.read_unread, h2.read_unread, h3.read_unread, View.ld_unit_zero (S := S10000x128) offs_zero2, View.ld_unit_zero (S := S1x128) offs_zero2]

/-- A later point leaves the rectified tile in the tile output. -/
theorem norm_later_tile (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S10000x128 .f32) (h4 : a4.IsWhole) (a5 : Memref sig .tc .vmem S1x1 .f32) (h5 : a5.IsWhole)
    (hc : ¬cond1_0 i) (x0 : Vec F S10000x128 .f32) (x1 x2 : Vec F S1x128 .f32) (xo4 : Vec F S1x1 .f32) :
    out1_B_3 c i a1 h1 a2 h2 a3 h3 a4 h4 a5 h5 hc x0 x1 x2 xo4 = k1_pay2 x0 x1 x2 := by
  unfold out1_B_3
  rw [View.read_writes_eq_canon _ _ _ (cover1_B_3 c i a1 h1 a2 h2 a3 h3 a4 h4 a5 h5 hc x0 x1 x2 xo4)]
  unfold kernelRun1_B
  dsimp only
  rw [View.canon_unit_zero offs_zero2]
  simp only [View.readAt_eq_ld, h1.read_unread, h2.read_unread, h3.read_unread, View.ld_unit_zero (S := S10000x128) offs_zero2, View.ld_unit_zero (S := S1x128) offs_zero2]

/-- The first point stores the zero entry, reads it back, and leaves it plus the total of the rectified tile's
    squares. -/
theorem norm_first_total (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S10000x128 .f32) (h4 : a4.IsWhole) (a5 : Memref sig .tc .vmem S1x1 .f32) (h5 : a5.IsWhole)
    (hc : cond1_0 i) (x0 : Vec F S10000x128 .f32) (x1 x2 : Vec F S1x128 .f32) :
    out1_A_4 c i a1 h1 a2 h2 a3 h3 a4 h4 a5 h5 hc x0 x1 x2 = k1_pay3 x0 x1 x2 k1_pay1 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x1) offs_zero2, View.readCov_unit_zero (S := S1x1) _ offs_zero2]
  simp only [View.readAt_eq_ld, h1.read_unread, h2.read_unread, h3.read_unread, View.ld_unit_zero (S := S10000x128) offs_zero2, View.ld_unit_zero (S := S1x128) offs_zero2]

/-- A later point leaves the running entry plus the total of the rectified tile's squares. -/
theorem norm_later_total (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (a4 : Memref sig .tc .vmem S10000x128 .f32) (h4 : a4.IsWhole) (a5 : Memref sig .tc .vmem S1x1 .f32) (h5 : a5.IsWhole)
    (hc : ¬cond1_0 i) (x0 : Vec F S10000x128 .f32) (x1 x2 : Vec F S1x128 .f32) (xo4 : Vec F S1x1 .f32) :
    out1_B_4 c i a1 h1 a2 h2 a3 h3 a4 h4 a5 h5 hc x0 x1 x2 xo4 = k1_pay3 x0 x1 x2 xo4 := by
  unfold out1_B_4
  rw [View.read_writes_eq_canon _ _ _ (cover1_B_4 c i a1 h1 a2 h2 a3 h3 a4 h4 a5 h5 hc x0 x1 x2 xo4)]
  unfold kernelRun1_B
  dsimp only
  rw [View.canon_unit_zero offs_zero2]
  simp only [View.readAt_eq_ld, h1.read_unread, h2.read_unread, h3.read_unread, h5.read_unread, View.ld_unit_zero (S := S10000x128) offs_zero2, View.ld_unit_zero (S := S1x128) offs_zero2,
    View.ld_unit_zero (S := S1x1) offs_zero2]

end Cert.KernelIdeal.RegionValues

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.NormPayload.lean ====
/-
  The normalize-and-rectify grid's arithmetic, read at an index over the extended reals: the rectified tile entry
  max((x - mean)·inv, 0), with the mean and the reciprocal deviation taken from their rows at the entry's column;
  and the total's new entry, the old one plus the sum over the tile's rows of the row sums of the squared rectified
  entries.
-/
import proofs.«154679_j31396210934417_1_alg».proof.Proof.Gen.KernelIdeal.Skeleton
import proofs.«154679_j31396210934417_1_alg».proof.Proof.LibFirstAxisSum
import proofs.«154679_j31396210934417_1_alg».proof.Proof.LibLaneSums
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValues

open Idealize.ShloMosaic Idealize.ShloMosaic.ValueIdx
open Cert.KernelIdeal Cert.KernelIdeal.Gen

/-- The zero entry the total starts from reads 0. -/
theorem zero_total_apply (j : S1x1.Idx) : (k1_pay1 (F := Ideal)) j = 0 := by
  unfold k1_pay1
  exact Ideal.ofBits_zero_f32

/-- The rectified tile at (r, q): the tile's entry less the mean row's entry at column q, times the
    reciprocal-deviation row's entry at column q, or 0 if that is negative. -/
theorem rect_tile_apply (x0 : Vec Ideal S10000x128 .f32) (x1 x2 : Vec Ideal S1x128 .f32) (r : Fin 10000) (q : Fin 128) :
    k1_pay2 x0 x1 x2 (ix2 r q) = max ((x0 (ix2 r q) - x1 (ix2 (0 : Fin 1) q)) * x2 (ix2 (0 : Fin 1) q)) 0 := by
  unfold k1_pay2
  refine (maximumf_apply _ _ _).trans (congrArg₂ max ?_ ?_)
  · refine (mulf_apply _ _ _).trans (congrArg₂ (· * ·) ?_ ?_)
    · refine (subf_apply _ _ _).trans (congrArg₂ (· - ·) ?_ ?_)
      · exact congrFun (shapeCast_self x0 _) _
      · refine (broadcastTo_1b_ab_apply _ _ r q).trans ?_
        exact congrFun (shapeCast_self x1 _) _
    · refine (broadcastTo_1b_ab_apply _ _ r q).trans ?_
      exact congrFun (shapeCast_self x2 _) _
  · exact Ideal.ofBits_zero_f32

/-- The total's new entry: the old entry plus the sum, over the tile's rows and columns, of the squared rectified
    entries (row sums along the columns first, then the sum of the row sums). -/
theorem total_apply (x0 : Vec Ideal S10000x128 .f32) (x1 x2 : Vec Ideal S1x128 .f32) (xo : Vec Ideal S1x1 .f32)
    (u v : Fin 1) :
    k1_pay3 x0 x1 x2 xo (ix2 u v)
      = xo (ix2 u v) + ∑ r : Fin 10000, ∑ q : Fin 128, k1_pay2 x0 x1 x2 (ix2 r q) * k1_pay2 x0 x1 x2 (ix2 r q) := by
  unfold k1_pay3
  refine (addf_apply _ _ _).trans (congrArg₂ (· + ·) ?_ ?_)
  · exact congrFun (shapeCast_self xo _) _
  · refine (shapeCast_a_1a_apply _ _ u v).trans ?_
    refine (Cert.AxisSums.sum_first_apply _ _ _ _ _ v).trans ?_
    refine Finset.sum_congr rfl fun r _ => ?_
    refine (Cert.LibLaneSums.shapeCast_a_a1_apply _ _ r v).trans ?_
    refine (Cert.LibLaneSums.sum_last_apply _ _ _ _ _ r).trans ?_
    exact Finset.sum_congr rfl fun q _ => mulf_apply _ _ _

end Cert.KernelIdeal.RegionValues

end
-- ==== Proof.NormBlocks.lean ====
/-
  The normalize-and-rectify grid's input blocks: the tile at point t is rows 10000·t … 10000·t + 9999 of the dense
  array; the mean row's and the reciprocal-deviation row's one block is the whole [1,128] row at every point.
-/
import proofs.«154679_j31396210934417_1_alg».proof.Proof.Gen.KernelIdeal.Frame
import Idealize.ShloMosaic.Lib.Pipeline.Value
import Idealize.ShloMosaic.Lib.ValueIdx

noncomputable section

namespace Cert.KernelIdeal.RegionValues

open Idealize.ShloMosaic Idealize.ShloMosaic.TcCoe Idealize.ShloMosaic.ValueIdx Idealize.SL.Sem
open Cert.KernelIdeal Cert.KernelIdeal.Gen

variable {F : FTy → Type} [FloatOps F]
variable (V : (c : Dev nD) → (b : Ref sig .tc) → Buf (Elt F) ((c : Thread nD τ).loc b))

/-- The block indices at point t, decided over the ten points: the tile's is (t, 0), the output tile's is (t, 0),
    the two rows' and the total's are (0, 0). -/
theorem norm_block_index : ∀ t : Fin cfg1.N,
    win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0
    ∧ win1_4.index t 0 = 0 ∧ win1_4.index t 1 = 0 :=
  (by decide +kernel : ∀ t : Fin grid1.N,
    win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0
    ∧ win1_4.index t 0 = 0 ∧ win1_4.index t 1 = 0)

/-- Entry (r, q) of the tile at point t is entry (10000·t + r, q) of the array. -/
theorem norm_tile_apply (c : Dev nD) (t : Fin cfg1.N) (r : Fin 10000) (q : Fin 128) (k : S100000x128.Idx)
    (hk0 : (k 0).val = t.val * 10000 + r.val) (hk1 : (k 1).val = q.val) :
    (iblk1 V c 0 t : Vec F S10000x128 .f32) (ix2 r q) = (V c main_v31 : S100000x128.Idx → Elt F .f32) k := by
  unfold iblk1
  rw [View.read_apply]
  show V c main_v31 _ = V c main_v31 _
  congr 1
  funext a
  apply Fin.ext
  match a with
  | ⟨0, _⟩ => show win1_0.index t 0 * 10000 + 1 * r.val = (k 0).val; rw [(norm_block_index t).1, hk0]; omega
  | ⟨1, _⟩ => show win1_0.index t 1 * 128 + 1 * q.val = (k 1).val; rw [(norm_block_index t).2.1, hk1]; omega

/-- Entry (u, q) of the mean row's block at any point is entry (u, q) of the mean row. -/
theorem norm_mean_apply (c : Dev nD) (t : Fin cfg1.N) (u : Fin 1) (q : Fin 128) :
    (iblk1 V c 1 t : Vec F S1x128 .f32) (ix2 u q) = (V c main_v34 : S1x128.Idx → Elt F .f32) (ix2 u q) := by
  unfold iblk1
  rw [View.read_apply]
  show V c main_v34 _ = V c main_v34 _
  congr 1
  funext a
  apply Fin.ext
  match a with
  | ⟨0, _⟩ => show win1_1.index t 0 * 1 + 1 * u.val = u.val; rw [(norm_block_index t).2.2.1]; omega
  | ⟨1, _⟩ => show win1_1.index t 1 * 128 + 1 * q.val = q.val; rw [(norm_block_index t).2.2.2.1]; omega

/-- Entry (u, q) of the reciprocal-deviation row's block at any point is entry (u, q) of that row. -/
theorem norm_inv_apply (c : Dev nD) (t : Fin cfg1.N) (u : Fin 1) (q : Fin 128) :
    (iblk1 V c 2 t : Vec F S1x128 .f32) (ix2 u q) = (V c main_v43 : S1x128.Idx → Elt F .f32) (ix2 u q) := by
  unfold iblk1
  rw [View.read_apply]
  show V c main_v43 _ = V c main_v43 _
  congr 1
  funext a
  apply Fin.ext
  match a with
  | ⟨0, _⟩ => show win1_2.index t 0 * 1 + 1 * u.val = u.val; rw [(norm_block_index t).2.2.2.2.1]; omega
  | ⟨1, _⟩ => show win1_2.index t 1 * 128 + 1 * q.val = q.val; rw [(norm_block_index t).2.2.2.2.2.1]; omega

end Cert.KernelIdeal.RegionValues

end
-- ==== Proof.Rectify.lean ====
/-
  The normalize-and-rectify grid, point by point. Its tile output at point t is the rectified entries of rows
  10000·t … 10000·t + 9999 of the dense array, whichever control case the point is in. Its [1,1] total holds after
  point n the sum of the squared rectified entries over the first (n+1)·10000 rows — the first point starts from the
  zero entry, every later point adds its tile's total to what the point before left —, so after the tenth point it
  holds the sum over the whole array.
-/
import proofs.«154679_j31396210934417_1_alg».proof.Proof.Gen.KernelIdeal.Frame
import proofs.«154679_j31396210934417_1_alg».proof.Proof.RegionArrays
import proofs.«154679_j31396210934417_1_alg».proof.Proof.NormPieces
import proofs.«154679_j31396210934417_1_alg».proof.Proof.NormPayload
import proofs.«154679_j31396210934417_1_alg».proof.Proof.NormBlocks
import proofs.«154679_j31396210934417_1_alg».proof.Proof.LibERealStats
import Idealize.ShloMosaic.Lib.Pipeline.Value

noncomputable section

namespace Cert.KernelIdeal.RegionValues

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile output -/

/-- The rectified tile at point t, entry (r, q), is the rectified entry of the array at (10000·t + r, q). -/
theorem rect_tile_at (c : Dev nD) (t : Fin cfg1.N) (r : Fin 10000) (q : Fin 128)
    (hlt : t.val * 10000 + r.val < 100000) :
    k1_pay2 (iblk1 V c 0 t) (iblk1 V c 1 t) (iblk1 V c 2 t) (ix2 r q) = rectified V c (ix2 ⟨t.val * 10000 + r.val, hlt⟩ q) := by
  refine (rect_tile_apply (iblk1 V c 0 t) (iblk1 V c 1 t) (iblk1 V c 2 t) r q).trans ?_
  unfold rectified
  exact congrArg₂ max (congrArg₂ (· * ·) (congrArg₂ (· - ·) (norm_tile_apply V c t r q _ rfl rfl)
    (norm_mean_apply V c t 0 q)) (norm_inv_apply V c t 0 q)) rfl

/-- The same, at any index of the tile and any index of the array with matching coordinates. -/
theorem rect_tile_emb (c : Dev nD) (t : Fin cfg1.N) (j : S10000x128.Idx) (k : S100000x128.Idx)
    (hk0 : (k 0).val = t.val * 10000 + (j 0).val) (hk1 : (k 1).val = (j 1).val) :
    k1_pay2 (iblk1 V c 0 t) (iblk1 V c 1 t) (iblk1 V c 2 t) j = rectified V c k := by
  obtain ⟨r, q, rfl⟩ : ∃ (r : Fin 10000) (q : Fin 128), j = ix2 r q := ⟨j 0, j 1, eq_ix2 j⟩
  have hN : t.val < 10 := lt_of_lt_of_eq t.isLt (show cfg1.N = 10 from N_1)
  have hlt : t.val * 10000 + r.val < 100000 := by have := r.isLt; omega
  have hk : k = ix2 ⟨t.val * 10000 + r.val, hlt⟩ q := by
    funext a
    apply Fin.ext
    match a with
    | ⟨0, _⟩ => exact hk0
    | ⟨1, _⟩ => exact hk1
  rw [hk]
  exact rect_tile_at V c t r q hlt

/-- After any point the tile output's buffer holds the rectified tile. -/
theorem tile_out_at (c : Dev nD) (t : Fin cfg1.N) :
    (outsAt1 V c t.val t.isLt).1 = k1_pay2 (iblk1 V c 0 t) (iblk1 V c 1 t) (iblk1 V c 2 t) := by
  by_cases h0 : t.val % 10 = 0
  · rw [outsAt1_A V c t h0]
    dsimp only
    exact norm_first_tile (F := Ideal) c (grid1.coords t) (ms1_0 t) (hs1_0 t) (ms1_1 t) (hs1_1 t) (ms1_2 t) (hs1_2 t) (ms1_3 t) (hs1_3 t)
        (ms1_4 t) (hs1_4 t) ((hcond1_0 t).mpr h0) (iblk1 V c 0 t) (iblk1 V c 1 t) (iblk1 V c 2 t)
  · rw [outsAt1_B V c t h0]
    dsimp only
    exact norm_later_tile (F := Ideal) c (grid1.coords t) (ms1_0 t) (hs1_0 t) (ms1_1 t) (hs1_1 t) (ms1_2 t) (hs1_2 t) (ms1_3 t) (hs1_3 t)
        (ms1_4 t) (hs1_4 t) (fun h => h0 ((hcond1_0 t).mp h)) (iblk1 V c 0 t) (iblk1 V c 1 t) (iblk1 V c 2 t)
        (outsAt1 V c (t.val - 1) (Nat.lt_of_le_of_lt (Nat.sub_le _ _) t.isLt)).2

/-! ## The total, one point -/

/-- The sum of the squared rectified entries of the array's row n (zero past the last row). -/
def rowSq (c : Dev nD) (n : ℕ) : EReal :=
  if h : n < 100000 then ∑ q : Fin 128, rectified V c (ix2 ⟨n, h⟩ q) * rectified V c (ix2 ⟨n, h⟩ q) else 0

theorem rowSq_fin (c : Dev nD) (i : Fin 100000) :
    rowSq V c i.val = ∑ q : Fin 128, rectified V c (ix2 i q) * rectified V c (ix2 i q) :=
  dif_pos i.isLt

/-- Row r of the rectified tile at point t, squared and summed, is that of the array's row 10000·t + r. -/
theorem tile_rowSq (c : Dev nD) (t : Fin cfg1.N) (r : Fin 10000) :
    ∑ q : Fin 128, k1_pay2 (iblk1 V c 0 t) (iblk1 V c 1 t) (iblk1 V c 2 t) (ix2 r q) * k1_pay2 (iblk1 V c 0 t) (iblk1 V c 1 t) (iblk1 V c 2 t) (ix2 r q)
      = rowSq V c (t.val * 10000 + r.val) := by
  have hN : t.val < 10 := lt_of_lt_of_eq t.isLt (show cfg1.N = 10 from N_1)
  have hlt : t.val * 10000 + r.val < 100000 := by have := r.isLt; omega
  unfold rowSq
  rw [dif_pos hlt]
  exact Finset.sum_congr rfl fun q _ => by rw [rect_tile_at V c t r q hlt]

/-- The first point leaves its tile's total. -/
theorem total_first_point (c : Dev nD) (t : Fin cfg1.N) (h0 : t.val % 10 = 0) (u v : Fin 1) :
    (outsAt1 V c t.val t.isLt).2 (ix2 u v) = ∑ r : Fin 10000, rowSq V c (t.val * 10000 + r.val) := by
  rw [outsAt1_A V c t h0]
  dsimp only
  refine (congrFun (norm_first_total (F := Ideal) c (grid1.coords t) (ms1_0 t) (hs1_0 t) (ms1_1 t) (hs1_1 t) (ms1_2 t) (hs1_2 t) (ms1_3 t) (hs1_3 t)
        (ms1_4 t) (hs1_4 t) ((hcond1_0 t).mpr h0) (iblk1 V c 0 t) (iblk1 V c 1 t) (iblk1 V c 2 t)) (ix2 u v)).trans ?_
  refine (total_apply (iblk1 V c 0 t) (iblk1 V c 1 t) (iblk1 V c 2 t) (k1_pay1 (F := Ideal)) u v).trans ?_
  rw [zero_total_apply, zero_add]
  exact Finset.sum_congr rfl fun r _ => tile_rowSq V c t r

/-- A later point adds its tile's total to what the point before left. -/
theorem total_later_point (c : Dev nD) (t : Fin cfg1.N) (h0 : ¬t.val % 10 = 0) (u v : Fin 1) :
    (outsAt1 V c t.val t.isLt).2 (ix2 u v)
      = (outsAt1 V c (t.val - 1) (Nat.lt_of_le_of_lt (Nat.sub_le _ _) t.isLt)).2 (ix2 u v)
        + ∑ r : Fin 10000, rowSq V c (t.val * 10000 + r.val) := by
  rw [outsAt1_B V c t h0]
  dsimp only
  refine (congrFun (norm_later_total (F := Ideal) c (grid1.coords t) (ms1_0 t) (hs1_0 t) (ms1_1 t) (hs1_1 t) (ms1_2 t) (hs1_2 t) (ms1_3 t) (hs1_3 t)
        (ms1_4 t) (hs1_4 t) (fun h => h0 ((hcond1_0 t).mp h)) (iblk1 V c 0 t) (iblk1 V c 1 t) (iblk1 V c 2 t)
    (outsAt1 V c (t.val - 1) (Nat.lt_of_le_of_lt (Nat.sub_le _ _) t.isLt)).2) (ix2 u v)).trans ?_
  refine (total_apply (iblk1 V c 0 t) (iblk1 V c 1 t) (iblk1 V c 2 t) (outsAt1 V c (t.val - 1) (Nat.lt_of_le_of_lt (Nat.sub_le _ _) t.isLt)).2 u v).trans ?_
  exact congrArg _ (Finset.sum_congr rfl fun r _ => tile_rowSq V c t r)

/-! ## The total, all points -/

/-- After point n the total holds the sum over the first n+1 tiles. -/
theorem total_after (c : Dev nD) (u v : Fin 1) : ∀ (n : ℕ) (h : n < cfg1.N),
    (outsAt1 V c n h).2 (ix2 u v) = ∑ t ∈ Finset.range (n + 1), ∑ r : Fin 10000, rowSq V c (t * 10000 + r.val)
  | 0, h => by
    rw [Finset.sum_range_one]
    exact total_first_point V c ⟨0, h⟩ rfl u v
  | n + 1, h => by
    have hN : cfg1.N = 10 := N_1
    have hB : ¬(⟨n + 1, h⟩ : Fin cfg1.N).val % 10 = 0 := by dsimp only; omega
    rw [Finset.sum_range_succ, ← total_after c u v n (Nat.lt_of_succ_lt h)]
    exact total_later_point V c ⟨n + 1, h⟩ hB u v

/-- The sum of the squares of all rectified entries, as a [1,1] array. -/
def sqTotal (c : Dev nD) : S1x1.Idx → EReal :=
  fun _ => ∑ r : Fin 100000, ∑ q : Fin 128, rectified V c (ix2 r q) * rectified V c (ix2 r q)

/-- After the last point the total holds the sum over the whole array. -/
theorem total_last (c : Dev nD) : (outsAt1 V c t1_9.val t1_9.isLt).2 = sqTotal V c := by
  funext j
  obtain ⟨u, v, rfl⟩ : ∃ (u : Fin 1) (v : Fin 1), j = ix2 u v := ⟨j 0, j 1, eq_ix2 j⟩
  refine (total_after V c u v 9 t1_9.isLt).trans ?_
  rw [Finset.sum_range (fun t => ∑ r : Fin 10000, rowSq V c (t * 10000 + r.val))]
  refine (Cert.LibERealStats.sum_tiles_of_eq 10 10000 100000 rfl (rowSq V c)).trans ?_
  exact Finset.sum_congr rfl fun i _ => rowSq_fin V c i

end Cert.KernelIdeal.RegionValues

end
-- ==== Proof.RectifyArrays.lean ====
/-
  The normalize-and-rectify grid's two output arrays. The tile output has one block per point, block t being rows
  10000·t … 10000·t + 9999, written back at every point: row r of the array is in block r / 10000, and what is
  written there is the rectified entries, so the array ends holding the rectified entry at every index. The total's
  window has one block, the whole [1,1] array, written back once, after the last point, with the sum of the squares
  of all rectified entries.
-/
import proofs.«154679_j31396210934417_1_alg».proof.Proof.Rectify
import Idealize.ShloMosaic.Lib.Pipeline.Value

noncomputable section

namespace Cert.KernelIdeal.RegionValues

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The tile output's array -/

/-- What point t writes back is block t of the rectified entries. -/
theorem flushed_rects (c : Dev nD) (t : Fin cfg1.N) :
    (dat1 V c).flushed 3 t = ((cfg1.win 3).blk t).view.read (Elt Ideal) (rectified V c) := by
  show (cfg1.win 3).cut (grid1.coords t) ((dat1 V c).after 3 t) = _
  rw [after1_3, tile_out_at]
  obtain ⟨e00, e01, e10, e11, e20, e21, e30, e31, e40, e41⟩ := norm_block_index t
  funext j
  show k1_pay2 (iblk1 V c 0 t) (iblk1 V c 1 t) (iblk1 V c 2 t) j = rectified V c (((cfg1.win 3).blk t).view.emb j)
  refine rect_tile_emb V c t j _ ?_ ?_
  · show win1_3.index t 0 * 10000 + 1 * (j 0).val = t.val * 10000 + (j 0).val
    rw [e30]; omega
  · show win1_3.index t 1 * 128 + 1 * (j 1).val = (j 1).val
    rw [e31]; omega

/-- An index of the array is in point t's block iff each coordinate is in the block's range on its axis. -/
theorem mem_rect_block (t : Fin cfg1.N) (i : S100000x128.Idx) :
    i ∈ ((cfg1.win 3).blk t).view.set
      ↔ ∀ a : Fin 2, win1_3.index t a * S10000x128.size a ≤ (i a).val
          ∧ (i a).val < win1_3.index t a * S10000x128.size a + S10000x128.size a := by
  show i ∈ ((View.whole main_v44_0).slice (win1_3.rect t)).set ↔ _
  rw [View.set_slice_whole, Rect.mem_set_unit]
  exact Iff.rfl

/-- So the array ends holding the rectified entries: row r is in block r / 10000. -/
theorem rects_array (c : Dev nD) : (dat1 V c).arrAt 3 cfg1.N = rectified V c :=
  (dat1 V c).arrAt_eq_of_cover 3 (rectified V c) (fun t _ => flushed_rects V c t) fun i => by
    have h0 : (i 0 : Nat) < 100000 := (i 0).isLt
    have h1 : (i 1 : Nat) < 128 := (i 1).isLt
    have hN : cfg1.N = 10 := N_1
    have ht : (i 0 : Nat) / 10000 < cfg1.N := by rw [hN]; omega
    refine ⟨⟨(i 0 : Nat) / 10000, ht⟩, flush1_3 _, ?_⟩
    obtain ⟨e00, e01, e10, e11, e20, e21, e30, e31, e40, e41⟩ := norm_block_index ⟨(i 0 : Nat) / 10000, ht⟩
    rw [mem_rect_block]
    intro a
    match a with
    | ⟨0, _⟩ =>
      show win1_3.index ⟨(i 0 : Nat) / 10000, ht⟩ 0 * 10000 ≤ (i 0 : Nat)
        ∧ (i 0 : Nat) < win1_3.index ⟨(i 0 : Nat) / 10000, ht⟩ 0 * 10000 + 10000
      rw [e30]
      show (i 0 : Nat) / 10000 * 10000 ≤ (i 0 : Nat) ∧ (i 0 : Nat) < (i 0 : Nat) / 10000 * 10000 + 10000
      omega
    | ⟨1, _⟩ =>
      show win1_3.index ⟨(i 0 : Nat) / 10000, ht⟩ 1 * 128 ≤ (i 1 : Nat)
        ∧ (i 1 : Nat) < win1_3.index ⟨(i 0 : Nat) / 10000, ht⟩ 1 * 128 + 128
      rw [e31]
      omega

/-! ## The total's array -/

/-- The one write-back of the total, after the last point, writes the sum over the whole array: its block is the
    whole [1,1] array. -/
theorem flushed_total (c : Dev nD) (t : Fin cfg1.N) (hf : (cfg1.win 4).flush t = true) :
    (dat1 V c).flushed 4 t = ((cfg1.win 4).blk t).view.read (Elt Ideal) (sqTotal V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4, total_last]
  have hz' : (fun a => win1_4.index t1_9 a * main_v44_1.ty.shape.size a) = fun _ => 0 :=
    funext fun a => by fin_cases a <;> decide
  exact (Memref.read_access_unit_zero (Elt Ideal) main_v44_1 hz' (fun a => by rw [congrFun hz' a]; simp) (sqTotal V c)).symm

/-- So the array ends holding it: the last point's block covers it. -/
theorem total_array (c : Dev nD) : (dat1 V c).arrAt 4 cfg1.N = sqTotal V c :=
  (dat1 V c).arrAt_eq_of_cover 4 (sqTotal V c) (flushed_total V c) fun i =>
    ⟨t1_9, (flush1_4 t1_9).mpr rfl, by
      show i ∈ ((View.whole main_v44_1).slice (win1_4.rect t1_9)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index t1_9 0 * win1_4.size 0 ≤ (i 0 : Nat)
          ∧ (i 0 : Nat) < win1_4.index t1_9 0 * win1_4.size 0 + win1_4.xsize (grid1.coords t1_9) 0
        rw [show win1_4.index t1_9 0 * win1_4.size 0 = 0 from by decide +kernel,
          show win1_4.xsize (grid1.coords t1_9) 0 = 1 from by decide +kernel]
        omega
      | ⟨1, _⟩ =>
        show win1_4.index t1_9 1 * win1_4.size 1 ≤ (i 1 : Nat)
          ∧ (i 1 : Nat) < win1_4.index t1_9 1 * win1_4.size 1 + win1_4.xsize (grid1.coords t1_9) 1
        rw [show win1_4.index t1_9 1 * win1_4.size 1 = 0 from by decide +kernel,
          show win1_4.xsize (grid1.coords t1_9) 1 = 1 from by decide +kernel]
        omega⟩

/-- Region 1 (the normalize-and-rectify grid): after its ten points, output window 3's array holds the rectified entries. -/
theorem rect (c : Dev nD) (i : S100000x128.Idx) : rects V c i = rectified V c i :=
  congrFun (rects_array V c) i

/-- ... and output window 4's [1,1] array the sum of the squares of all rectified entries. -/
theorem rect_total (c : Dev nD) (j : S1x1.Idx) :
    rectTotal V c j = ∑ r : Fin 100000, ∑ q : Fin 128, rectified V c (ix2 r q) * rectified V c (ix2 r q) :=
  congrFun (total_array V c) j

end Cert.KernelIdeal.RegionValues

end
-- ==== Proof.RegionValues.lean ====
/-
  The values of the two accumulating grids, at the buffer contents V each is entered with: the statistics grid's
  output arrays hold the column sums and the column sums of squares of the dense array (`colsum`, `colsumsq`); the
  normalize-and-rectify grid's hold the rectified entries and the sum of their squares (`rect`, `rect_total`).
-/
import proofs.«154679_j31396210934417_1_alg».proof.Proof.ColumnSumsArray
import proofs.«154679_j31396210934417_1_alg».proof.Proof.RectifyArrays
-- ==== Proof.Spec.lean ====
/-
  The specification both programs are compared against, as plain functions of ONE dense array
  `X` of shape [100000, 128] on the extended reals (the array both programs build from their arguments by
  the same sparse products): per column `c` the mean `μ c = (Σ_r X r c) / N`; a column variance `v c`;
  the normalized, rectified entry `max ((X r c - μ c) · rsqrt (v c + ε)) 0`; the sum `T` of the squares of
  all rectified entries; and the result `entry · rsqrt (max T tiny)`.

  The two programs differ only in the variance they use: the kernel accumulates column sums and column
  sums of squares and takes `max (Σ x² / N - μ²) 0`; the reference takes the mean of the squared
  deviations `Σ (x - μ)² / N`. For finite entries these are one number: the second form is a quotient of a sum
  of squares, hence nonnegative, and it equals `Σ x² / N - μ²` by expanding the square (with `Σ x = N μ`).
-/
import Idealize.ShloMosaic.PureOps.Ideal
import Idealize.ShloMosaic.Lib.ValueIdx
import proofs.«154679_j31396210934417_1_alg».proof.Proof.LibERealStats

noncomputable section

namespace Cert.Spec

open Idealize.ShloMosaic Idealize.ShloMosaic.ValueIdx Cert.LibERealStats

/-- The dense array's shape: 100000 rows, 128 columns. -/
abbrev SND : Shape := ⟨2, ![100000, 128]⟩

/-- The number of rows as a float: the word of 100000.0. -/
def cN : EReal := Ideal.ofBits .f32 0x47C35000#32
/-- The variance's offset: the word of 1e-3. -/
def cEps : EReal := Ideal.ofBits .f32 0x3A83126F#32
/-- The floor under the sum of squares: the word of 1e-12. -/
def cTiny : EReal := Ideal.ofBits .f32 0x2B8CBCCC#32

/-- Column mean. -/
def colMean (X : SND.Idx → EReal) (c : Fin 128) : EReal :=
  Ideal.div (∑ r : Fin 100000, X (ix2 r c)) cN

/-- The kernel's column variance: mean of squares minus square of mean, floored at zero. -/
def varK (X : SND.Idx → EReal) (c : Fin 128) : EReal :=
  max (Ideal.div (∑ r : Fin 100000, X (ix2 r c) * X (ix2 r c)) cN - colMean X c * colMean X c) 0

/-- The reference's column variance: mean of the squared deviations from the mean. -/
def varR (X : SND.Idx → EReal) (c : Fin 128) : EReal :=
  Ideal.div (∑ r : Fin 100000, (X (ix2 r c) - colMean X c) * (X (ix2 r c) - colMean X c)) cN

/-- The normalized and rectified entry, for a column variance `v`. -/
def relu (X : SND.Idx → EReal) (v : Fin 128 → EReal) (r : Fin 100000) (c : Fin 128) : EReal :=
  max ((X (ix2 r c) - colMean X c) * Ideal.rsqrt (v c + cEps)) 0

/-- The sum of the squares of all rectified entries. -/
def total (X : SND.Idx → EReal) (v : Fin 128 → EReal) : EReal :=
  ∑ r : Fin 100000, ∑ c : Fin 128, relu X v r c * relu X v r c

/-- The result: the rectified entry rescaled by the reciprocal root of the (floored) total. -/
def out (X : SND.Idx → EReal) (v : Fin 128 → EReal) (i : SND.Idx) : EReal :=
  relu X v (i 0) (i 1) * Ideal.rsqrt (max (total X v) cTiny)

end Cert.Spec

end
-- ==== Proof.Consts.lean ====
/-
  The float constants the two programs spell, as the extended reals their words denote: the row count
  100000, the dropout's 1/2 and 2, and zero. Stated once so that no other module unfolds a word.
-/
import Idealize.ShloMosaic.PureOps.Ideal

noncomputable section

namespace Cert.Consts

open Idealize.ShloMosaic

/-- The word of `+0.0` denotes `0`. -/
theorem ofBits_zero : Ideal.ofBits .f32 0x00000000#32 = 0 := by
  simp [Ideal.ofBits, Ideal.ieee]

/-- The word of `100000.0` denotes the real `100000`. -/
theorem ofBits_1e5 : Ideal.ofBits .f32 0x47C35000#32 = ((100000 : ℝ) : EReal) := by
  simp [Ideal.ofBits, Ideal.ieee, -EReal.coe_mul]; norm_num

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

end Cert.Consts

end
-- ==== Proof.KernelValue.lean ====
/-
  The kernel's result as the specification: following the program's six segments backwards from the result array.
  The last grid leaves `rectified · scale`; the four host operations before it make `scale = rsqrt (max T tiny)` of
  the [1,1] total `T` the second grid accumulated; the second grid leaves the rectified entries
  `max ((x - μ) · s) 0` and their sum of squares; the fifteen host operations before it make the mean row
  `μ = Σ x / N` and `s = rsqrt (max (Σ x² / N - μ²) 0 + ε)` from the column sums and column sums of squares the first
  grid accumulated over the dense array; and that array is `pre` of the arguments. Entry by entry this is
  `Spec.out X (Spec.varK X)` at `X = pre (arguments)`.
-/
import proofs.«154679_j31396210934417_1_alg».proof.Proof.Prefix
import proofs.«154679_j31396210934417_1_alg».proof.Proof.Rescale
import proofs.«154679_j31396210934417_1_alg».proof.Proof.RegionValues
import proofs.«154679_j31396210934417_1_alg».proof.Proof.Spec
import proofs.«154679_j31396210934417_1_alg».proof.Proof.Consts
import Idealize.ShloMosaic.Lib.StableHlo.Run
import Idealize.ShloMosaic.Lib.Pipeline.Value
import Idealize.ShloMosaic.Lib.ValueIdx

noncomputable section

namespace Cert.KernelIdeal.KValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.RegionValues Cert.KernelIdeal.Rescale

variable (m : (ℓ : Loc nD τ sig) → Buf (Elt Ideal) ℓ) (ρ : Dev nD → PrngReg)

/-- The dense array of the arguments as launched. -/
abbrev X (c : Dev nD) : S100000x128.Idx → EReal :=
  pre (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The result array at the last segment boundary. -/
abbrev resultArr (c : Dev nD) : S100000x128.Idx → EReal := W6 (F := Ideal) m ρ c (Proc.devRef .tc main_v48)

/-! ## The dense array at the first and the second grid -/

theorem X1 (c : Dev nD) : arrX (V1 m ρ) c = X m c := entry_array m ρ c

/-- The first grid only reads the dense array and the host operations after it do not write it. -/
theorem X3 (c : Dev nD) : arrX (V3 m ρ) c = X m c := by
  show StableHlo.after hostOps1 (W2 m ρ c) (Proc.devRef .tc main_v31) = _
  after_results_simp
  exact ((W2_arr m ρ c 0).trans (((dat0 (V1 m ρ) c).arrAt_in 0 rfl cfg0.N).trans (A_eq0 (V1 m ρ) c 0))).trans
    (entry_array m ρ c)

/-! ## The statistics rows the second grid is entered with -/

theorem mean3 (c : Dev nD) (q : Fin 128) : arrMean (V3 m ρ) c (ix2 0 q) = Cert.Spec.colMean (X m c) q := by
  have e : arrMean (V3 m ρ) c = Host.divf (sums (V1 m ρ) c)
      (broadcastInDim S1x128 ![] bcast_S_S1x128 (constant (F := Ideal) S_ .f32 0x47C35000#32)) := by
    show StableHlo.after hostOps1 (W2 m ρ c) (Proc.devRef .tc main_v34) = _
    after_results_simp
    rw [show W2 m ρ c (Proc.devRef .tc main_v32_0) = sums (V1 m ρ) c from W2_arr m ρ c 1]
  rw [e]
  show Ideal.div (sums (V1 m ρ) c (ix2 0 q)) Cert.Spec.cN = _
  rw [colsum (V1 m ρ) c (ix2 0 q), X1]
  rfl

theorem inv3 (c : Dev nD) (q : Fin 128) :
    arrInv (V3 m ρ) c (ix2 0 q) = Ideal.rsqrt (Cert.Spec.varK (X m c) q + Cert.Spec.cEps) := by
  have e : arrInv (V3 m ρ) c = Host.rsqrt
      (addf
        (maximumf
          (subf
            (Host.divf (sumsqs (V1 m ρ) c)
              (broadcastInDim S1x128 ![] bcast_S_S1x128 (constant (F := Ideal) S_ .f32 0x47C35000#32)))
            (mulf
              (Host.divf (sums (V1 m ρ) c)
                (broadcastInDim S1x128 ![] bcast_S_S1x128 (constant (F := Ideal) S_ .f32 0x47C35000#32)))
              (Host.divf (sums (V1 m ρ) c)
                (broadcastInDim S1x128 ![] bcast_S_S1x128 (constant (F := Ideal) S_ .f32 0x47C35000#32)))))
          (broadcastInDim S1x128 ![] bcast_S_S1x128 (constant (F := Ideal) S_ .f32 0x00000000#32)))
        (broadcastInDim S1x128 ![] bcast_S_S1x128 (constant (F := Ideal) S_ .f32 0x3A83126F#32))) := by
    show StableHlo.after hostOps1 (W2 m ρ c) (Proc.devRef .tc main_v43) = _
    after_results_simp
    rw [show W2 m ρ c (Proc.devRef .tc main_v32_0) = sums (V1 m ρ) c from W2_arr m ρ c 1,
      show W2 m ρ c (Proc.devRef .tc main_v32_1) = sumsqs (V1 m ρ) c from W2_arr m ρ c 2]
  rw [e]
  show Ideal.rsqrt (max (Ideal.div (sumsqs (V1 m ρ) c (ix2 0 q)) Cert.Spec.cN
        - Ideal.div (sums (V1 m ρ) c (ix2 0 q)) Cert.Spec.cN * Ideal.div (sums (V1 m ρ) c (ix2 0 q)) Cert.Spec.cN)
        (Ideal.ofBits .f32 0x00000000#32) + Cert.Spec.cEps) = _
  rw [colsum (V1 m ρ) c (ix2 0 q), colsumsq (V1 m ρ) c (ix2 0 q), X1, Cert.Consts.ofBits_zero]
  rfl

/-- The second grid's rectified entry is the specification's, at the kernel's variance. -/
theorem rectified3 (c : Dev nD) (r : Fin 100000) (q : Fin 128) :
    rectified (V3 m ρ) c (ix2 r q) = Cert.Spec.relu (X m c) (Cert.Spec.varK (X m c)) r q := by
  unfold rectified Cert.Spec.relu
  rw [X3]
  show max ((X m c (ix2 r q) - arrMean (V3 m ρ) c (ix2 0 q)) * arrInv (V3 m ρ) c (ix2 0 q)) 0 = _
  rw [mean3, inv3]

/-! ## The two arrays the last grid is entered with -/

theorem rect5 (c : Dev nD) : arrRect (V5 m ρ) c = rects (V3 m ρ) c := by
  show StableHlo.after hostOps2 (W4 m ρ c) (Proc.devRef .tc main_v44_0) = _
  after_results_simp
  exact W4_arr m ρ c 3

theorem scale5 (c : Dev nD) :
    arrScale (V5 m ρ) c (ix2 0 0) = Ideal.rsqrt (max (rectTotal (V3 m ρ) c (ix2 0 0)) Cert.Spec.cTiny) := by
  have e : arrScale (V5 m ρ) c = Host.rsqrt (maximumf (rectTotal (V3 m ρ) c)
      (broadcastInDim S1x1 ![] bcast_S_S1x1 (constant (F := Ideal) S_ .f32 0x2B8CBCCC#32))) := by
    show StableHlo.after hostOps2 (W4 m ρ c) (Proc.devRef .tc main_v47) = _
    after_results_simp
    rw [show W4 m ρ c (Proc.devRef .tc main_v44_1) = rectTotal (V3 m ρ) c from W4_arr m ρ c 4]
  rw [e]
  simp only [Host.rsqrt, maximumf, Ideal.hostUnary_rsqrt_def, Ideal.maximumf_def]
  rfl

/-! ## The result -/

/-- The result array at the last boundary is the specification at the kernel's variance. -/
theorem result_eq (c : Dev nD) :
    resultArr m ρ c = Cert.Spec.out (X m c) (Cert.Spec.varK (X m c)) := by
  refine (W6_arr m ρ c 2).trans ?_
  refine (Rescale.out_eq (V5 m ρ) c).trans ?_
  funext i
  obtain ⟨r, q, rfl⟩ : ∃ (r : Fin 100000) (q : Fin 128), i = ix2 r q := ⟨i 0, i 1, eq_ix2 i⟩
  show arrRect (V5 m ρ) c (ix2 r q) * arrScale (V5 m ρ) c (ix2 0 0) = _
  rw [rect5, scale5, rect (V3 m ρ) c, rect_total (V3 m ρ) c]
  simp only [rectified3]
  rfl

end Cert.KernelIdeal.KValue

end
-- ==== Proof.Variance.lean ====
/-
  The one law that joins the two programs: for an array of FINITE entries the kernel's column variance
  `max (Σ x² / N - μ²) 0` is the reference's `Σ (x - μ)² / N` (`μ = Σ x / N`, `N = 100000` the number of rows).
  Expanding the square gives `Σ (x - μ)² / N = Σ x² / N - μ²`; the left side is a quotient of a sum of squares of
  reals by a positive number, so it is nonnegative and the floor at zero changes nothing. (With an infinite entry
  the two sides differ, which is why the entries' finiteness is needed.)
-/
import proofs.«154679_j31396210934417_1_alg».proof.Proof.Spec
import proofs.«154679_j31396210934417_1_alg».proof.Proof.Consts
import proofs.«154679_j31396210934417_1_alg».proof.Proof.LibERealStats

noncomputable section

namespace Cert.Spec

open Idealize.ShloMosaic Idealize.ShloMosaic.ValueIdx Cert.LibERealStats

/-- A sum of squares of reals divided by a positive real is nonnegative. -/
theorem div_sum_sq_nonneg {ι : Type*} [Fintype ι] (t : ι → EReal) (ht : ∀ i, IsReal (t i)) (N : ℝ) (hN : 0 < N) :
    0 ≤ Ideal.div (∑ i, t i * t i) (N : EReal) := by
  have hs0 : 0 ≤ ∑ i, t i * t i := Finset.sum_nonneg fun i _ => by
    obtain ⟨u, hu⟩ := ht i
    rw [hu, ← EReal.coe_mul]
    exact EReal.coe_nonneg.mpr (mul_self_nonneg u)
  obtain ⟨s, hs⟩ : IsReal (∑ i, t i * t i) := IsReal.sum_univ fun i => (ht i).mul (ht i)
  rw [hs] at hs0 ⊢
  rw [div_coe_coe s (ne_of_gt hN)]
  exact EReal.coe_nonneg.mpr (div_nonneg (EReal.coe_nonneg.mp hs0) hN.le)

/-- For finite entries the two column variances agree. -/
theorem varK_eq_varR (X : SND.Idx → EReal) (hX : ∀ i, IsReal (X i)) : varK X = varR X := by
  funext c
  have hN : (100000 : ℝ) ≠ 0 := by norm_num
  have hcard : (Fintype.card (Fin 100000) : ℝ) = 100000 := by rw [Fintype.card_fin]; norm_num
  have h := variance_eq (fun r : Fin 100000 => X (ix2 r c)) (fun r => hX _) 100000 hN hcard
  have hμ : IsReal (Ideal.div (∑ r : Fin 100000, X (ix2 r c)) ((100000 : ℝ) : EReal)) :=
    isReal_mean (fun r : Fin 100000 => X (ix2 r c)) (fun r => hX _) 100000 hN
  have hpos := div_sum_sq_nonneg
    (fun r : Fin 100000 => X (ix2 r c) - Ideal.div (∑ j : Fin 100000, X (ix2 j c)) ((100000 : ℝ) : EReal))
    (fun r => (hX _).sub hμ) 100000 (by norm_num)
  unfold varK varR colMean cN
  rw [Cert.Consts.ofBits_1e5]
  beta_reduce at h hpos
  rw [← h]
  exact max_eq_left hpos

end Cert.Spec

end
-- ==== Proof.FinitePre.lean ====
/-
  Every entry of the dense array `pre` is a real number when every entry of the four float argument arrays is:
  a broadcast or a gather reads SOME entry of its operand, a product or a sum of reals is real, the floor of a
  real is real, and a scatter-add's entry is its operand's entry plus a finite sum of update entries. Nothing is
  asked of the index arrays.
-/
import proofs.«154679_j31396210934417_1_alg».proof.Proof.Prefix
import proofs.«154679_j31396210934417_1_alg».proof.Proof.LibERealStats
import proofs.«154679_j31396210934417_1_alg».proof.Proof.Consts

noncomputable section

namespace Cert.KernelIdeal.Finite

open Idealize.ShloMosaic
open Cert.LibERealStats
open Cert.KernelIdeal Cert.KernelIdeal.KValue

/-! ## Operation by operation, over any shapes -/

section Ops
variable {s t si : Shape}

/-- A broadcast reads an entry of its operand. -/
theorem isReal_broadcastInDim {dims : Fin s.rank → Fin t.rank} (h : s.BroadcastsInDim t dims) {x : s.Idx → EReal}
    (hx : ∀ i, IsReal (x i)) (j : t.Idx) : IsReal (broadcastInDim t dims h x j) :=
  hx _

/-- A gather reads an entry of its operand, whatever the start indices are. -/
theorem isReal_gather {w : Nat} (d : GatherDims s si t) {x : s.Idx → EReal} (idx : IVec si w)
    (hx : ∀ i, IsReal (x i)) (j : t.Idx) : IsReal (Host.gather d x idx j) :=
  hx _

/-- The entrywise product of two arrays of reals. -/
theorem isReal_mulf {φ : FTy} {x y : FVec Ideal s φ} (hx : ∀ i, IsReal (x i)) (hy : ∀ i, IsReal (y i)) (i : s.Idx) :
    IsReal (mulf x y i) :=
  (hx i).mul (hy i)

/-- The entrywise sum of two arrays of reals. -/
theorem isReal_addf {φ : FTy} {x y : FVec Ideal s φ} (hx : ∀ i, IsReal (x i)) (hy : ∀ i, IsReal (y i)) (i : s.Idx) :
    IsReal (addf x y i) :=
  (hx i).add (hy i)

/-- The entrywise floor of an array of reals: the floor of a real is an integer, hence a real. -/
theorem isReal_floor {φ : FTy} {x : FVec Ideal s φ} (hx : ∀ i, IsReal (x i)) (i : s.Idx) :
    IsReal (Host.floor (F := Ideal) x i) := by
  obtain ⟨r, hr⟩ := hx i
  show IsReal (Ideal.liftRound Int.floor (x i))
  rw [hr]
  exact ⟨((⌊r⌋ : ℤ) : ℝ), rfl⟩

/-- A constant array whose word denotes a real. -/
theorem isReal_constant {φ : FTy} {b : BitVec φ.bits} (hb : IsReal (Ideal.ofBits φ b)) (i : s.Idx) :
    IsReal (constant (F := Ideal) s φ b i) :=
  hb

/-- A scatter-add's entry is the operand's entry plus the sum of the update entries landing on it. -/
theorem isReal_scatterAdd {u : Shape} {w : Nat} {φ : FTy} (d : ScatterDims s si u) {x : FVec Ideal s φ} (idx : IVec si w)
    {upd : FVec Ideal u φ} (hx : ∀ i, IsReal (x i)) (hupd : ∀ j, IsReal (upd j)) (i : s.Idx) :
    IsReal (Host.scatterAdd (F := Ideal) d x idx upd i) := by
  show IsReal (Ideal.hostScatterAdd d x idx upd i)
  unfold Ideal.hostScatterAdd
  exact (hx i).add (IsReal.sum fun j _ => hupd j)

end Ops

/-! ## The three constants -/

theorem isReal_half : IsReal (Ideal.ofBits .f32 0x3F000000#32) := by
  rw [Cert.Consts.ofBits_half]; exact ⟨_, rfl⟩

theorem isReal_two : IsReal (Ideal.ofBits .f32 0x40000000#32) := by
  rw [Cert.Consts.ofBits_two]; exact ⟨_, rfl⟩

theorem isReal_zero : IsReal (Ideal.ofBits .f32 0x00000000#32) := by
  rw [Cert.Consts.ofBits_zero]; exact IsReal.zero

/-! ## The stages of `pre` -/

/-- A per-nonzero real spread over the columns. -/
theorem spread_isReal {v : FNnz} (hv : ∀ e, IsReal (v e)) (j : S1600000x128.Idx) : IsReal (spread v j) :=
  isReal_broadcastInDim _ (isReal_broadcastInDim _ hv) j

/-- The dropped-out values are real when the values and the uniforms are. -/
theorem dropped_isReal {a0 a7 : FNnz} (h0 : ∀ e, IsReal (a0 e)) (h7 : ∀ e, IsReal (a7 e)) (e : S1600000.Idx) :
    IsReal (dropped a0 a7 e) :=
  isReal_mulf
    (isReal_mulf h0
      (isReal_floor (isReal_addf (isReal_broadcastInDim _ (isReal_constant isReal_half)) h7)))
    (isReal_broadcastInDim _ (isReal_constant isReal_two)) e

/-- Rows of reals scatter-added into the zero array. -/
theorem segSum_isReal (rows : INnz) {u : FRows} (hu : ∀ j, IsReal (u j)) (i : S100000x128.Idx) :
    IsReal (segSum rows u i) :=
  isReal_scatterAdd _ _ (isReal_broadcastInDim _ (isReal_constant isReal_zero)) hu i

/-- The first sparse product is real entrywise. -/
theorem preSup_isReal {a0 : FNnz} (a1 a2 : INnz) {a6 : FW} {a7 : FNnz} (h0 : ∀ e, IsReal (a0 e))
    (h6 : ∀ j, IsReal (a6 j)) (h7 : ∀ e, IsReal (a7 e)) (i : S100000x128.Idx) :
    IsReal (preSup a0 a1 a2 a6 a7 i) :=
  segSum_isReal a1
    (isReal_mulf (spread_isReal (dropped_isReal h0 h7)) (isReal_gather _ _ h6)) i

/-- THE DENSE ARRAY IS REAL ENTRYWISE, whatever the four index arrays hold. -/
theorem pre_isReal (a0 : FNnz) (a1 a2 : INnz) (a3 : FNnz) (a4 a5 : INnz) (a6 : FW) (a7 : FNnz)
    (h0 : ∀ e, IsReal (a0 e)) (h3 : ∀ e, IsReal (a3 e)) (h6 : ∀ j, IsReal (a6 j)) (h7 : ∀ e, IsReal (a7 e)) :
    ∀ i, IsReal (pre a0 a1 a2 a3 a4 a5 a6 a7 i) := fun i =>
  segSum_isReal a4
    (isReal_mulf (spread_isReal h3) (isReal_gather _ _ (preSup_isReal a1 a2 h0 h6 h7))) i

end Cert.KernelIdeal.Finite

end
-- ==== Proof.Finite.lean ====
/-
  The dense array `pre` of a memory that satisfies the precondition is real entrywise: the precondition says that
  each of the four float argument arrays has |x| < +inf at every entry, i.e. every entry is a real number.
-/
import proofs.«154679_j31396210934417_1_alg».proof.Proof.FinitePre
import proofs.«154679_j31396210934417_1_alg».proof.Proof.Gen.Pre_finite_inputs
import proofs.«154679_j31396210934417_1_alg».proof.Defs
import Idealize.ShloMosaic.Lib.ReduceAll
import Idealize.ShloMosaic.Lib.ValueIdx

noncomputable section

namespace Cert.KernelIdeal.Finite

open Idealize.ShloMosaic Idealize.SL.Sem
open Cert.LibERealStats
open Cert.KernelIdeal Cert.KernelIdeal.KValue

/-- A rank-0 shape has one index. -/
instance : Subsingleton Cert.Pre_finite_inputs.S_.Idx := ⟨fun a b => funext fun d => d.elim0⟩

/-- The word of `+inf` denotes `⊤`. -/
theorem ofBits_inf : Ideal.ofBits .f32 0x7F800000#32 = ⊤ := by
  simp [Ideal.ofBits, Ideal.ieee]

/-- An extended real whose absolute value compares below `+inf` is a real number. -/
theorem isReal_of_cmp {x : EReal}
    (h : Ideal.cmp .olt (max x (-x)) (Ideal.ofBits .f32 0x7F800000#32) = 1#1) : IsReal x := by
  refine isReal_of_abs_lt_top ?_
  rw [ofBits_inf] at h
  unfold Ideal.cmp at h
  dsimp only at h
  by_contra hlt
  rw [decide_eq_false hlt] at h
  exact absurd h (by decide)

/-- THE PRECONDITION DECODED, over variables: when the printed predicate is all ones, each of the four float arrays is
    real entrywise. -/
theorem fn_decode (a0 : FNnz) (a1 a2 : INnz) (a3 : FNnz) (a4 a5 : INnz) (a6 : FW) (a7 : FNnz)
    (h : Cert.Pre_finite_inputs.fn (F := Ideal) a0 a1 a2 a3 a4 a5 a6 a7 = fun _ => 1#1) :
    (∀ e, IsReal (a0 e)) ∧ (∀ e, IsReal (a3 e)) ∧ (∀ j, IsReal (a6 j)) ∧ (∀ e, IsReal (a7 e)) := by
  have h0 := congrFun h ValueIdx.ix0
  dsimp only [Cert.Pre_finite_inputs.fn, Cert.Pre_finite_inputs.fn_part1] at h0
  obtain ⟨h012, hd⟩ := IntOp.andi_eq_one.1 h0
  obtain ⟨h01, hc⟩ := IntOp.andi_eq_one.1 h012
  obtain ⟨ha, hb⟩ := IntOp.andi_eq_one.1 h01
  exact ⟨fun e => isReal_of_cmp (Host.reduce_andi_all _ _ _ _ _ ha e),
    fun e => isReal_of_cmp (Host.reduce_andi_all _ _ _ _ _ hb e),
    fun j => isReal_of_cmp (Host.reduce_andi_all _ _ _ _ _ hc j),
    fun e => isReal_of_cmp (Host.reduce_andi_all _ _ _ _ _ hd e)⟩

/-- THE DENSE ARRAY OF A MEMORY SATISFYING THE PRECONDITION IS REAL ENTRYWISE, on every device. -/
theorem pre_finite (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (i : Cert.KernelIdeal.S100000x128.Idx) :
    Cert.LibERealStats.IsReal
      (Cert.KernelIdeal.KValue.pre (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) i) := by
  obtain ⟨h0, h3, h6, h7⟩ := fn_decode _ _ _ _ _ _ _ _ (hpre c)
  exact pre_isReal _ _ _ _ _ _ _ _ h0 h3 h6 h7 i

end Cert.KernelIdeal.Finite

end
-- ==== Proof.RefTerm.lean ====
/-
  The reference program's result as ONE term of its eight argument arrays, in two parts: `pre`, the dense
  [100000, 128] array built by the sparse dropout and the two sparse products, and `tail`, what the program does
  to that array afterwards — the column mean, the column variance as the mean of the squared deviations (with the
  guard the variance function carries on its divisor), the normalization, the rectifier, the sum of all squares
  and the rescaling by its reciprocal root. Each definition is the program's own operations, composed.
-/
import proofs.«154679_j31396210934417_1_alg».proof.Proof.Gen.ReferenceIdeal
import Idealize.ShloMosaic.PureOps.Ideal

noncomputable section

namespace Cert.ReferenceIdeal.RefRun

open Idealize.ShloMosaic
open Cert.ReferenceIdeal Cert.ReferenceIdeal.Gen

/-- A float vector of one entry per nonzero. -/
abbrev FNnz := FVec Ideal S1600000 .f32
/-- An index vector of one entry per nonzero. -/
abbrev INnz := IVec S1600000 32
/-- The dense weight matrix. -/
abbrev FW := FVec Ideal S512x128 .f32
/-- A dense [100000, 128] array. -/
abbrev FDense := FVec Ideal S100000x128 .f32
/-- One row of 128 per nonzero. -/
abbrev FRows := FVec Ideal S1600000x128 .f32
/-- One entry per column. -/
abbrev FCol := FVec Ideal S128 .f32

/-- An index vector with its negative entries wrapped by the axis length `n` (numpy's negative indexing),
    as a column of start indices. -/
def wrapIdx (n : BitVec 32) (a : INnz) : IVec S1600000x1 32 :=
  broadcastInDim S1600000x1 ![0] bcast_S1600000_S1600000x1_0
    (select
      (cmpi CmpIPredicate.slt a (broadcastInDim S1600000 ![] bcast_S_S1600000 (constantI S_ 32 0#32)))
      (addi a (broadcastInDim S1600000 ![] bcast_S_S1600000 (constantI S_ 32 n)))
      a)

/-- A per-nonzero scalar spread over the 128 columns. -/
def spread (v : FNnz) : FRows :=
  broadcastInDim S1600000x128 ![0, 1] bcast_S1600000x1_S1600000x128_0_1
    (broadcastInDim S1600000x1 ![0] bcast_S1600000_S1600000x1_0 v)

/-- The dropped-out, rescaled nonzero values `x_vals · floor (1/2 + u) · 2`. -/
def dropped (a0 a7 : FNnz) : FNnz :=
  mulf
    (mulf a0
      (Host.floor (F := Ideal)
        (addf (broadcastInDim S1600000 ![] bcast_S_S1600000 (constant (F := Ideal) S_ FTy.f32 0x3F000000#32)) a7)))
    (broadcastInDim S1600000 ![] bcast_S_S1600000 (constant (F := Ideal) S_ FTy.f32 0x40000000#32))

/-- Rows scatter-added into a zero [100000, 128] array by a row-index vector. -/
def segSum (rows : INnz) (u : FRows) : FDense :=
  Host.scatterAdd (F := Ideal) scatter_S100000x128_S1600000x1_S1600000x128_1_0_0_1
    (broadcastInDim S100000x128 ![] bcast_S_S100000x128 (constant (F := Ideal) S_ FTy.f32 0x00000000#32))
    (broadcastInDim S1600000x1 ![0] bcast_S1600000_S1600000x1_0 rows) u

/-- The first sparse product: `Σ_{e : x_rows e = n} xv e · W[x_cols e, ·]`. -/
def preSup (a0 : FNnz) (a1 a2 : INnz) (a6 : FW) (a7 : FNnz) : FDense :=
  segSum a1
    (mulf (spread (dropped a0 a7))
      (Host.gather gather_S512x128_S1600000x1_S1600000x128_1_0_n_n_0_1_1128 a6 (wrapIdx 512#32 a2)))

/-- The dense array the program normalizes: `Σ_{e : e_rows e = n} e_vals e · pre_sup[e_cols e, ·]`. -/
def pre (a0 : FNnz) (a1 a2 : INnz) (a3 : FNnz) (a4 a5 : INnz) (a6 : FW) (a7 : FNnz) : FDense :=
  segSum a4
    (mulf (spread a3)
      (Host.gather gather_S100000x128_S1600000x1_S1600000x128_1_0_n_n_0_1_1128 (preSup a0 a1 a2 a6 a7)
        (wrapIdx 100000#32 a5)))

/-- The scalar zero. -/
def zeroS : FVec Ideal S_ .f32 := constant (F := Ideal) S_ FTy.f32 0x00000000#32
/-- The scalar row count, 100000. -/
def countS : FVec Ideal S_ .f32 := constant (F := Ideal) S_ FTy.f32 0x47C35000#32

/-- Column sums of a dense array (from the zero word). -/
def colSum (Y : FDense) : FCol :=
  Host.reduceAdd (F := Ideal) Y zeroS reducesTo_S100000x128_S128_d0 h_S_

/-- A per-column vector spread over all rows. -/
def rowsOf (v : FCol) : FDense :=
  broadcastInDim S100000x128 ![0, 1] bcast_S1x128_S100000x128_0_1 (broadcastInDim S1x128 ![1] bcast_S128_S1x128_1 v)

/-- The column mean, as the main line computes it. -/
def meanV (X : FDense) : FCol :=
  Host.divf (colSum X) (broadcastInDim S128 ![] bcast_S_S128 countS)

/-- The deviations from the column mean, as the variance function computes them (the mean kept as a row). -/
def devV (X : FDense) : FDense :=
  subf X
    (broadcastInDim S100000x128 ![0, 1] bcast_S1x128_S100000x128_0_1
      (Host.divf (broadcastInDim S1x128 ![1] bcast_S128_S1x128_1 (colSum X))
        (broadcastInDim S1x128 ![] bcast_S_S1x128 countS)))

/-- The variance's divisor: the row count minus the (zero) correction. -/
def divisorS : FVec Ideal S_ .f32 :=
  subf countS (sitofp (F := Ideal) FTy.f32 (constantI S_ 32 0#32))

/-- The column variance: the mean of the squared deviations where the divisor is positive, the junk word elsewhere. -/
def varV (X : FDense) : FCol :=
  select (broadcastInDim S128 ![] bcast_S_S128 (cmpf CmpFPredicate.ogt divisorS zeroS))
    (Host.divf (colSum (mulf (devV X) (devV X))) (broadcastInDim S128 ![] bcast_S_S128 divisorS))
    (broadcastInDim S128 ![] bcast_S_S128 (id (constant (F := Ideal) S_ FTy.f32 0x7FC00000#32)))

/-- The normalized array. -/
def normV (X : FDense) : FDense :=
  mulf (subf X (rowsOf (meanV X)))
    (rowsOf (Host.rsqrt (F := Ideal)
      (addf (varV X) (broadcastInDim S128 ![] bcast_S_S128 (constant (F := Ideal) S_ FTy.f32 0x3A83126F#32)))))

/-- The rectifier. -/
def reluV (Y : FDense) : FDense :=
  maximumf Y (broadcastInDim S100000x128 ![] bcast_S_S100000x128 zeroS)

/-- The rescaling by the reciprocal root of the (floored) sum of all squares. -/
def rescaleV (R : FDense) : FDense :=
  mulf R
    (broadcastInDim S100000x128 ![] bcast_S_S100000x128
      (Host.rsqrt (F := Ideal)
        (maximumf (Host.reduceAdd (F := Ideal) (mulf R R) zeroS reducesTo_S100000x128_S_d0_1 h_S_)
          (constant (F := Ideal) S_ FTy.f32 0x2B8CBCCC#32))))

/-- Everything the program does after the second sparse product, as a function of that product. -/
def tail (X : FDense) : FDense := rescaleV (reluV (normV X))

end Cert.ReferenceIdeal.RefRun

end
-- ==== Proof.RefRun.lean ====
/-
  The reference program's run. Its @main is a straight line of 89 host operations once the three outlined
  functions (the biased column variance, its guarded quotient, the rectifier) are read at their call sites over
  the calls' own buffers. The line is run as a list; what the result buffer then holds is computed in four
  stretches — the two sparse products, the column statistics, the normalization and rectifier, the rescaling —
  each read off over arbitrary contents of the buffers it starts from, and composed: `tail (pre …)` of the eight
  argument arrays, the two parts defined beside this module.
-/
import proofs.«154679_j31396210934417_1_alg».proof.Proof.RefTerm
import Idealize.ShloMosaic.Lib.StableHlo.Run
import Idealize.ShloMosaic.PureOps.Ideal

noncomputable section

namespace Cert.ReferenceIdeal.RefRun

open Idealize.ShloMosaic Idealize.ShloMosaic.TcCoe Idealize.ShloMosaic.Tactic Idealize.SL.Sem Idealize.ShloMosaic.StableHlo
open Cert.ReferenceIdeal Cert.ReferenceIdeal.Gen

section Line

variable {F : FTy → Type} [FloatOps F]

set_option maxHeartbeats 4000000 in
/-- @main's 89 operations in order, each call's operations listed where the call stands, over that call's buffers. -/
abbrev ops : List (HloOp τ sig (Elt F)) :=
  [
    nullary main_cst (constant S_ .f32 0x3F000000#32),
    unary main_cst main_v0 (broadcastInDim S1600000 ![] bcast_S_S1600000 : (⟨S_, .f32⟩ : BufTy).Contents (Elt F) → (⟨S1600000, .f32⟩ : BufTy).Contents (Elt F)),
    binary main_v0 main_arg7 main_v1 (addf : (⟨S1600000, .f32⟩ : BufTy).Contents (Elt F) → (⟨S1600000, .f32⟩ : BufTy).Contents (Elt F) → (⟨S1600000, .f32⟩ : BufTy).Contents (Elt F)),
    unary main_v1 main_v2 (Host.floor : (⟨S1600000, .f32⟩ : BufTy).Contents (Elt F) → (⟨S1600000, .f32⟩ : BufTy).Contents (Elt F)),
    binary main_arg0 main_v2 main_v3 (mulf : (⟨S1600000, .f32⟩ : BufTy).Contents (Elt F) → (⟨S1600000, .f32⟩ : BufTy).Contents (Elt F) → (⟨S1600000, .f32⟩ : BufTy).Contents (Elt F)),
    nullary main_cst_0 (constant S_ .f32 0x40000000#32),
    unary main_cst_0 main_v4 (broadcastInDim S1600000 ![] bcast_S_S1600000 : (⟨S_, .f32⟩ : BufTy).Contents (Elt F) → (⟨S1600000, .f32⟩ : BufTy).Contents (Elt F)),
    binary main_v3 main_v4 main_v5 (mulf : (⟨S1600000, .f32⟩ : BufTy).Contents (Elt F) → (⟨S1600000, .f32⟩ : BufTy).Contents (Elt F) → (⟨S1600000, .f32⟩ : BufTy).Contents (Elt F)),
    unary main_v5 main_v6 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg2 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 512#32),
    unary main_c_1 main_v9 (broadcastInDim S1600000 ![] bcast_S_S1600000 : (⟨S_, .i32⟩ : BufTy).Contents (Elt F) → (⟨S1600000, .i32⟩ : BufTy).Contents (Elt F)),
    binary main_arg2 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg2 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg6 main_v12 main_v13 ((fun x i => Host.gather gather_S512x128_S1600000x1_S1600000x128_1_0_n_n_0_1_1128 x i) : (⟨S512x128, .f32⟩ : BufTy).Contents (Elt F) → (⟨S1600000x1, .i32⟩ : BufTy).Contents (Elt F) → (⟨S1600000x128, .f32⟩ : BufTy).Contents (Elt F)),
    unary main_v6 main_v14 (broadcastInDim S1600000x128 ![0, 1] bcast_S1600000x1_S1600000x128_0_1 : (⟨S1600000x1, .f32⟩ : BufTy).Contents (Elt F) → (⟨S1600000x128, .f32⟩ : BufTy).Contents (Elt F)),
    binary main_v14 main_v13 main_v15 (mulf : (⟨S1600000x128, .f32⟩ : BufTy).Contents (Elt F) → (⟨S1600000x128, .f32⟩ : BufTy).Contents (Elt F) → (⟨S1600000x128, .f32⟩ : BufTy).Contents (Elt F)),
    nullary main_cst_2 (constant S_ .f32 0x00000000#32),
    unary main_cst_2 main_v16 (broadcastInDim S100000x128 ![] bcast_S_S100000x128 : (⟨S_, .f32⟩ : BufTy).Contents (Elt F) → (⟨S100000x128, .f32⟩ : BufTy).Contents (Elt F)),
    unary main_arg1 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_3 (constantI S_ 32 0#32),
    unary main_c_3 main_v20 (broadcastInDim S1600000 ![] bcast_S_S1600000 : (⟨S_, .i32⟩ : BufTy).Contents (Elt F) → (⟨S1600000, .i32⟩ : BufTy).Contents (Elt F)),
    binary main_arg5 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v22 (broadcastInDim S1600000 ![] bcast_S_S1600000 : (⟨S_, .i32⟩ : BufTy).Contents (Elt F) → (⟨S1600000, .i32⟩ : BufTy).Contents (Elt F)),
    binary main_arg5 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg5 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v19 main_v27 (broadcastInDim S1600000x128 ![0, 1] bcast_S1600000x1_S1600000x128_0_1 : (⟨S1600000x1, .f32⟩ : BufTy).Contents (Elt F) → (⟨S1600000x128, .f32⟩ : BufTy).Contents (Elt F)),
    binary main_v27 main_v26 main_v28 (mulf : (⟨S1600000x128, .f32⟩ : BufTy).Contents (Elt F) → (⟨S1600000x128, .f32⟩ : BufTy).Contents (Elt F) → (⟨S1600000x128, .f32⟩ : BufTy).Contents (Elt F)),
    nullary main_cst_5 (constant S_ .f32 0x00000000#32),
    unary main_cst_5 main_v29 (broadcastInDim S100000x128 ![] bcast_S_S100000x128 : (⟨S_, .f32⟩ : BufTy).Contents (Elt F) → (⟨S100000x128, .f32⟩ : BufTy).Contents (Elt F)),
    unary main_arg4 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_6 (constant S_ .f32 0x00000000#32),
    binary main_v31 main_cst_6 main_v32 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v31 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v31 : TRef sig ⟨S100000x128, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v34 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v31 main_v37 main_v38 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3A83126F#32),
    unary main_cst_9 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v38 main_v43 main_v44 (mulf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v44 : TRef sig ⟨S100000x128, .f32⟩) main_call1.v0 main_call1.v1 maximumf,
    binary main_v45 main_v45 main_v46 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v46 main_cst_10 main_v47 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    nullary main_cst_11 (constant S_ .f32 0x2B8CBCCC#32),
    binary main_v47 main_cst_11 main_v48 (maximumf : (⟨S_, .f32⟩ : BufTy).Contents (Elt F) → (⟨S_, .f32⟩ : BufTy).Contents (Elt F) → (⟨S_, .f32⟩ : BufTy).Contents (Elt F)),
    unary main_v48 main_v49 (Host.rsqrt : (⟨S_, .f32⟩ : BufTy).Contents (Elt F) → (⟨S_, .f32⟩ : BufTy).Contents (Elt F)),
    unary main_v49 main_v50 (broadcastInDim S100000x128 ![] bcast_S_S100000x128 : (⟨S_, .f32⟩ : BufTy).Contents (Elt F) → (⟨S100000x128, .f32⟩ : BufTy).Contents (Elt F)),
    binary main_v45 main_v50 main_v51 (mulf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- @main is that straight line: sequencing grafts a continuation onto a program's leaves by structural recursion,
    so the two windows and the functions' bodies, unfolded, compute to the same chain of steps as the list does. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops_sub : (ops : List (HloOp τ sig (Elt F))).Forall fun op => op.bufs ⊆ tcRefs τ sig :=
  ⟨
    nullary_bufs_sub .., unary_bufs_sub .., binary_bufs_sub .., unary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., unary_bufs_sub .., binary_bufs_sub .., binary_bufs_sub .., nullary_bufs_sub .., binary_bufs_sub ..,
    nullary_bufs_sub .., binary_bufs_sub .., unary_bufs_sub .., unary_bufs_sub .., binary_bufs_sub ..⟩

/-! ## The line in four stretches -/

set_option maxHeartbeats 4000000 in
/-- Operations 1 … 40: the sparse dropout and the two sparse products, ending in the dense array. -/
abbrev opsPre : List (HloOp τ sig (Elt F)) :=
  [
    nullary main_cst (constant S_ .f32 0x3F000000#32),
    unary main_cst main_v0 (broadcastInDim S1600000 ![] bcast_S_S1600000 : (⟨S_, .f32⟩ : BufTy).Contents (Elt F) → (⟨S1600000, .f32⟩ : BufTy).Contents (Elt F)),
    binary main_v0 main_arg7 main_v1 (addf : (⟨S1600000, .f32⟩ : BufTy).Contents (Elt F) → (⟨S1600000, .f32⟩ : BufTy).Contents (Elt F) → (⟨S1600000, .f32⟩ : BufTy).Contents (Elt F)),
    unary main_v1 main_v2 (Host.floor : (⟨S1600000, .f32⟩ : BufTy).Contents (Elt F) → (⟨S1600000, .f32⟩ : BufTy).Contents (Elt F)),
    binary main_arg0 main_v2 main_v3 (mulf : (⟨S1600000, .f32⟩ : BufTy).Contents (Elt F) → (⟨S1600000, .f32⟩ : BufTy).Contents (Elt F) → (⟨S1600000, .f32⟩ : BufTy).Contents (Elt F)),
    nullary main_cst_0 (constant S_ .f32 0x40000000#32),
    unary main_cst_0 main_v4 (broadcastInDim S1600000 ![] bcast_S_S1600000 : (⟨S_, .f32⟩ : BufTy).Contents (Elt F) → (⟨S1600000, .f32⟩ : BufTy).Contents (Elt F)),
    binary main_v3 main_v4 main_v5 (mulf : (⟨S1600000, .f32⟩ : BufTy).Contents (Elt F) → (⟨S1600000, .f32⟩ : BufTy).Contents (Elt F) → (⟨S1600000, .f32⟩ : BufTy).Contents (Elt F)),
    unary main_v5 main_v6 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg2 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 512#32),
    unary main_c_1 main_v9 (broadcastInDim S1600000 ![] bcast_S_S1600000 : (⟨S_, .i32⟩ : BufTy).Contents (Elt F) → (⟨S1600000, .i32⟩ : BufTy).Contents (Elt F)),
    binary main_arg2 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg2 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg6 main_v12 main_v13 ((fun x i => Host.gather gather_S512x128_S1600000x1_S1600000x128_1_0_n_n_0_1_1128 x i) : (⟨S512x128, .f32⟩ : BufTy).Contents (Elt F) → (⟨S1600000x1, .i32⟩ : BufTy).Contents (Elt F) → (⟨S1600000x128, .f32⟩ : BufTy).Contents (Elt F)),
    unary main_v6 main_v14 (broadcastInDim S1600000x128 ![0, 1] bcast_S1600000x1_S1600000x128_0_1 : (⟨S1600000x1, .f32⟩ : BufTy).Contents (Elt F) → (⟨S1600000x128, .f32⟩ : BufTy).Contents (Elt F)),
    binary main_v14 main_v13 main_v15 (mulf : (⟨S1600000x128, .f32⟩ : BufTy).Contents (Elt F) → (⟨S1600000x128, .f32⟩ : BufTy).Contents (Elt F) → (⟨S1600000x128, .f32⟩ : BufTy).Contents (Elt F)),
    nullary main_cst_2 (constant S_ .f32 0x00000000#32),
    unary main_cst_2 main_v16 (broadcastInDim S100000x128 ![] bcast_S_S100000x128 : (⟨S_, .f32⟩ : BufTy).Contents (Elt F) → (⟨S100000x128, .f32⟩ : BufTy).Contents (Elt F)),
    unary main_arg1 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_3 (constantI S_ 32 0#32),
    unary main_c_3 main_v20 (broadcastInDim S1600000 ![] bcast_S_S1600000 : (⟨S_, .i32⟩ : BufTy).Contents (Elt F) → (⟨S1600000, .i32⟩ : BufTy).Contents (Elt F)),
    binary main_arg5 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v22 (broadcastInDim S1600000 ![] bcast_S_S1600000 : (⟨S_, .i32⟩ : BufTy).Contents (Elt F) → (⟨S1600000, .i32⟩ : BufTy).Contents (Elt F)),
    binary main_arg5 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg5 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v19 main_v27 (broadcastInDim S1600000x128 ![0, 1] bcast_S1600000x1_S1600000x128_0_1 : (⟨S1600000x1, .f32⟩ : BufTy).Contents (Elt F) → (⟨S1600000x128, .f32⟩ : BufTy).Contents (Elt F)),
    binary main_v27 main_v26 main_v28 (mulf : (⟨S1600000x128, .f32⟩ : BufTy).Contents (Elt F) → (⟨S1600000x128, .f32⟩ : BufTy).Contents (Elt F) → (⟨S1600000x128, .f32⟩ : BufTy).Contents (Elt F)),
    nullary main_cst_5 (constant S_ .f32 0x00000000#32),
    unary main_cst_5 main_v29 (broadcastInDim S100000x128 ![] bcast_S_S100000x128 : (⟨S_, .f32⟩ : BufTy).Contents (Elt F) → (⟨S100000x128, .f32⟩ : BufTy).Contents (Elt F)),
    unary main_arg4 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

set_option maxHeartbeats 4000000 in
/-- Operations 41 … 68: the column mean and the variance function with its guard. -/
abbrev opsStat : List (HloOp τ sig (Elt F)) :=
  [
    nullary main_cst_6 (constant S_ .f32 0x00000000#32),
    binary main_v31 main_cst_6 main_v32 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v31 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v31 : TRef sig ⟨S100000x128, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

set_option maxHeartbeats 4000000 in
/-- Operations 69 … 81: the normalization and the rectifier. -/
abbrev opsNorm : List (HloOp τ sig (Elt F)) :=
  [
    unary main_v34 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v31 main_v37 main_v38 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3A83126F#32),
    unary main_cst_9 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v38 main_v43 main_v44 (mulf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v44 : TRef sig ⟨S100000x128, .f32⟩) main_call1.v0 main_call1.v1 maximumf ]

set_option maxHeartbeats 4000000 in
/-- Operations 82 … 89: the sum of all squares and the rescaling. -/
abbrev opsScale : List (HloOp τ sig (Elt F)) :=
  [
    binary main_v45 main_v45 main_v46 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v46 main_cst_10 main_v47 ((fun x v => Host.reduceAdd x v reducesTo_S100000x128_S_d0_1 h_S_) : (⟨S100000x128, .f32⟩ : BufTy).Contents (Elt F) → (⟨S_, .f32⟩ : BufTy).Contents (Elt F) → (⟨S_, .f32⟩ : BufTy).Contents (Elt F)),
    nullary main_cst_11 (constant S_ .f32 0x2B8CBCCC#32),
    binary main_v47 main_cst_11 main_v48 (maximumf : (⟨S_, .f32⟩ : BufTy).Contents (Elt F) → (⟨S_, .f32⟩ : BufTy).Contents (Elt F) → (⟨S_, .f32⟩ : BufTy).Contents (Elt F)),
    unary main_v48 main_v49 (Host.rsqrt : (⟨S_, .f32⟩ : BufTy).Contents (Elt F) → (⟨S_, .f32⟩ : BufTy).Contents (Elt F)),
    unary main_v49 main_v50 (broadcastInDim S100000x128 ![] bcast_S_S100000x128 : (⟨S_, .f32⟩ : BufTy).Contents (Elt F) → (⟨S100000x128, .f32⟩ : BufTy).Contents (Elt F)),
    binary main_v45 main_v50 main_v51 (mulf : (⟨S100000x128, .f32⟩ : BufTy).Contents (Elt F) → (⟨S100000x128, .f32⟩ : BufTy).Contents (Elt F) → (⟨S100000x128, .f32⟩ : BufTy).Contents (Elt F)) ]

/-- The line is its four stretches, one after the other. -/
theorem ops_split : (ops : List (HloOp τ sig (Elt F))) = opsPre ++ (opsStat ++ (opsNorm ++ opsScale)) := rfl

end Line

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## Each stretch read off -/

set_option maxRecDepth 8192 in
set_option maxHeartbeats 4000000 in
/-- After the first stretch the dense array is `pre` of the arguments. -/
theorem pre_v31 (V : Valuation τ sig (Elt Ideal)) :
    after opsPre V (Proc.devRef .tc main_v31) = pre (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  rfl

set_option maxRecDepth 8192 in
/-- The statistics stretch leaves the dense array as it was. -/
theorem stat_v31 (W : Valuation τ sig (Elt Ideal)) :
    after opsStat W (Proc.devRef .tc main_v31) = W (Proc.devRef .tc main_v31) := by
  after_results_simp

set_option maxRecDepth 8192 in
/-- … and computes the column mean of it … -/
theorem stat_v34 (W : Valuation τ sig (Elt Ideal)) :
    after opsStat W (Proc.devRef .tc main_v34) = meanV (W (Proc.devRef .tc main_v31)) := by
  after_results_simp
  rfl

set_option maxRecDepth 8192 in
set_option maxHeartbeats 4000000 in
/-- … and the guarded column variance. -/
theorem stat_v35 (W : Valuation τ sig (Elt Ideal)) :
    after opsStat W (Proc.devRef .tc main_v35) = varV (W (Proc.devRef .tc main_v31)) := by
  after_results_simp
  rfl

set_option maxRecDepth 8192 in
/-- The third stretch normalizes the dense array by the mean and variance buffers and rectifies. -/
theorem norm_v45 (W : Valuation τ sig (Elt Ideal)) :
    after opsNorm W (Proc.devRef .tc main_v45)
      = reluV (mulf (subf (W (Proc.devRef .tc main_v31) : FDense) (rowsOf (W (Proc.devRef .tc main_v34))))
          (rowsOf (Host.rsqrt (F := Ideal) (addf (W (Proc.devRef .tc main_v35) : FCol)
            (broadcastInDim S128 ![] bcast_S_S128 (constant (F := Ideal) S_ FTy.f32 0x3A83126F#32)))))) := by
  after_results_simp
  rfl

set_option maxRecDepth 8192 in
/-- The last stretch rescales the rectified array. -/
theorem scale_v51 (W : Valuation τ sig (Elt Ideal)) :
    after opsScale W (Proc.devRef .tc main_v51) = rescaleV (W (Proc.devRef .tc main_v45)) := by
  after_results_simp
  rfl

/-- The whole line at the result buffer. -/
theorem res_eq (V : Valuation τ sig (Elt Ideal)) :
    after ops V (Proc.devRef .tc main_v51) = tail (pre (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  rw [ops_split, after_append, after_append, after_append, scale_v51, norm_v45, stat_v31, stat_v34, stat_v35, pre_v31]
  rfl

set_option maxRecDepth 8192 in
/-- No operation writes argument 0. -/
theorem arg0_eq (V : Valuation τ sig (Elt Ideal)) :
    after ops V (Proc.devRef .tc main_arg0) = V (Proc.devRef .tc main_arg0) := by
  after_results_simp

set_option maxRecDepth 8192 in
/-- No operation writes argument 1. -/
theorem arg1_eq (V : Valuation τ sig (Elt Ideal)) :
    after ops V (Proc.devRef .tc main_arg1) = V (Proc.devRef .tc main_arg1) := by
  after_results_simp

set_option maxRecDepth 8192 in
/-- No operation writes argument 2. -/
theorem arg2_eq (V : Valuation τ sig (Elt Ideal)) :
    after ops V (Proc.devRef .tc main_arg2) = V (Proc.devRef .tc main_arg2) := by
  after_results_simp

set_option maxRecDepth 8192 in
/-- No operation writes argument 3. -/
theorem arg3_eq (V : Valuation τ sig (Elt Ideal)) :
    after ops V (Proc.devRef .tc main_arg3) = V (Proc.devRef .tc main_arg3) := by
  after_results_simp

set_option maxRecDepth 8192 in
/-- No operation writes argument 4. -/
theorem arg4_eq (V : Valuation τ sig (Elt Ideal)) :
    after ops V (Proc.devRef .tc main_arg4) = V (Proc.devRef .tc main_arg4) := by
  after_results_simp

set_option maxRecDepth 8192 in
/-- No operation writes argument 5. -/
theorem arg5_eq (V : Valuation τ sig (Elt Ideal)) :
    after ops V (Proc.devRef .tc main_arg5) = V (Proc.devRef .tc main_arg5) := by
  after_results_simp

set_option maxRecDepth 8192 in
/-- No operation writes argument 6. -/
theorem arg6_eq (V : Valuation τ sig (Elt Ideal)) :
    after ops V (Proc.devRef .tc main_arg6) = V (Proc.devRef .tc main_arg6) := by
  after_results_simp

set_option maxRecDepth 8192 in
/-- No operation writes argument 7. -/
theorem arg7_eq (V : Valuation τ sig (Elt Ideal)) :
    after ops V (Proc.devRef .tc main_arg7) = V (Proc.devRef .tc main_arg7) := by
  after_results_simp

set_option maxRecDepth 8192 in
set_option maxHeartbeats 4000000 in
/-- From any memory with zero counters every weakly fair execution of @main terminates, each buffer at the line's fold. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- On every device, from any memory with zero counters: every weakly fair execution of @main terminates with
    the result at `tail (pre …)` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51) = tail (pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v51).trans (res_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_all m ρ)

end Cert.ReferenceIdeal.RefRun

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.RefValue.lean ====
/-
  The reference program's `tail` read at an index: the column mean is the column sum over the row count; the
  variance function's divisor `100000 - 0` is positive, so its guard always takes the quotient — the mean of the
  squared deviations from the column mean — and never the junk word; the normalized, rectified entry and the
  rescaling by the reciprocal root of the floored sum of all squares then follow operation by operation. Each
  host sum starts from the zero word, hence `0 + Σ`, and each broadcast reads its source at the kept coordinates.
-/
import proofs.«154679_j31396210934417_1_alg».proof.Proof.RefTerm
import proofs.«154679_j31396210934417_1_alg».proof.Proof.Spec
import proofs.«154679_j31396210934417_1_alg».proof.Proof.Consts
import proofs.«154679_j31396210934417_1_alg».proof.Proof.LibUnitAxes
import proofs.«154679_j31396210934417_1_alg».proof.Proof.LibUnitColumns
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.RefRun
open Cert.LibUnitAxes Cert.LibUnitColumns

/-- The zero word is `0`. -/
theorem zeroS_apply (j : S_.Idx) : zeroS j = 0 := Cert.Consts.ofBits_zero

/-- The row-count word is the specification's `cN`. -/
theorem countS_apply (j : S_.Idx) : countS j = Cert.Spec.cN := rfl

/-- A column sum is the sum down the column. -/
theorem colSum_apply (Y : FDense) (c : Fin 128) : colSum Y (ix1 c) = ∑ r : Fin 100000, Y (ix2 r c) := by
  have h : S100000x128.Reduces [0] S128 := by decide
  show Ideal.hostReduceAdd reducesTo_S100000x128_S128_d0 Y (zeroS _) (ix1 c) = _
  rw [Ideal.hostReduceAdd_single _ h, zeroS_apply, zero_add]
  refine Finset.sum_congr rfl fun r _ => congrArg Y ?_
  funext a
  apply Fin.ext
  match a with
  | ⟨0, _⟩ => rfl
  | ⟨1, _⟩ => rfl

/-- A per-column vector spread over the rows reads the vector at the column. -/
theorem rowsOf_apply (v : FCol) (r : Fin 100000) (c : Fin 128) : rowsOf v (ix2 r c) = v (ix1 c) := by
  unfold rowsOf
  rw [broadcastInDim_1b_ab_apply, broadcastInDim_b_1b_apply]

/-- The main line's column mean is the specification's. -/
theorem meanV_apply (X : FDense) (c : Fin 128) : meanV X (ix1 c) = Cert.Spec.colMean X c := by
  show Ideal.div (colSum X (ix1 c)) (broadcastInDim S128 ![] bcast_S_S128 countS (ix1 c)) = _
  rw [colSum_apply, broadcastInDim_scalar_apply]
  rfl

/-- The variance function's deviations are the entries minus the specification's column mean. -/
theorem devV_apply (X : FDense) (r : Fin 100000) (c : Fin 128) :
    devV X (ix2 r c) = X (ix2 r c) - Cert.Spec.colMean X c := by
  show X (ix2 r c) - broadcastInDim S100000x128 ![0, 1] bcast_S1x128_S100000x128_0_1
      (Host.divf (broadcastInDim S1x128 ![1] bcast_S128_S1x128_1 (colSum X))
        (broadcastInDim S1x128 ![] bcast_S_S1x128 countS)) (ix2 r c) = _
  rw [broadcastInDim_1b_ab_apply]
  show X (ix2 r c) - Ideal.div (broadcastInDim S1x128 ![1] bcast_S128_S1x128_1 (colSum X) (ix2 0 c))
      (broadcastInDim S1x128 ![] bcast_S_S1x128 countS (ix2 0 c)) = _
  rw [broadcastInDim_b_1b_apply, broadcastInDim_scalar_apply, colSum_apply]
  rfl

/-- The variance's divisor: `100000 - 0`. -/
theorem divisorS_apply (j : S_.Idx) : divisorS j = ((100000 : ℝ) : EReal) := by
  show Ideal.ofBits .f32 0x47C35000#32 - (((0#32 : BitVec 32).toInt : ℝ) : EReal) = _
  rw [Cert.Consts.ofBits_1e5]
  simp

/-- The divisor is positive, so the guard is set. -/
theorem guard_apply (j : S_.Idx) : cmpf CmpFPredicate.ogt divisorS zeroS j = 1#1 := by
  show Ideal.cmp .ogt (divisorS j) (zeroS j) = 1#1
  rw [divisorS_apply, zeroS_apply]
  have hpos : (0 : EReal) < ((100000 : ℝ) : EReal) := by exact_mod_cast (by norm_num : (0 : ℝ) < 100000)
  simp [Ideal.cmp, hpos]

/-- The guarded variance is the specification's mean of squared deviations. -/
theorem varV_apply (X : FDense) (c : Fin 128) : varV X (ix1 c) = Cert.Spec.varR X c := by
  have hs : colSum (mulf (devV X) (devV X)) (ix1 c)
      = ∑ r : Fin 100000, (X (ix2 r c) - Cert.Spec.colMean X c) * (X (ix2 r c) - Cert.Spec.colMean X c) := by
    rw [colSum_apply]
    refine Finset.sum_congr rfl fun r _ => ?_
    rw [mulf_apply, devV_apply]
  have hd (a b : FCol) : Host.divf (F := Ideal) a b (ix1 c) = Ideal.div (a (ix1 c)) (b (ix1 c)) := rfl
  unfold varV
  rw [select_apply, broadcastInDim_scalar_apply, guard_apply, select_one, hd, hs, broadcastInDim_scalar_apply,
    divisorS_apply, ← Cert.Consts.ofBits_1e5]
  rfl

/-- The normalized entry. -/
theorem normV_apply (X : FDense) (r : Fin 100000) (c : Fin 128) :
    normV X (ix2 r c)
      = (X (ix2 r c) - Cert.Spec.colMean X c) * Ideal.rsqrt (Cert.Spec.varR X c + Cert.Spec.cEps) := by
  show (X (ix2 r c) - rowsOf (meanV X) (ix2 r c))
      * rowsOf (Host.rsqrt (F := Ideal) (addf (varV X)
          (broadcastInDim S128 ![] bcast_S_S128 (constant (F := Ideal) S_ FTy.f32 0x3A83126F#32)))) (ix2 r c) = _
  rw [rowsOf_apply, rowsOf_apply, meanV_apply]
  show _ * Ideal.rsqrt (varV X (ix1 c)
      + broadcastInDim S128 ![] bcast_S_S128 (constant (F := Ideal) S_ FTy.f32 0x3A83126F#32) (ix1 c)) = _
  rw [varV_apply, broadcastInDim_scalar_apply]
  rfl

/-- The rectifier is the maximum with `0`. -/
theorem reluV_apply (Y : FDense) (i : S100000x128.Idx) : reluV Y i = max (Y i) 0 := by
  show max (Y i) (broadcastInDim S100000x128 ![] bcast_S_S100000x128 zeroS i) = _
  rw [broadcastInDim_scalar_apply, zeroS_apply]

/-- The normalized, rectified entry is the specification's. -/
theorem relu_norm_apply (X : FDense) (r : Fin 100000) (c : Fin 128) :
    reluV (normV X) (ix2 r c) = Cert.Spec.relu X (Cert.Spec.varR X) r c := by
  rw [reluV_apply, normV_apply]
  rfl

/-- The rescaling: each entry times the reciprocal root of the floored sum of all squares. -/
theorem rescaleV_apply (R : FDense) (i : S100000x128.Idx) :
    rescaleV R i
      = R i * Ideal.rsqrt (max (∑ r : Fin 100000, ∑ c : Fin 128, R (ix2 r c) * R (ix2 r c)) Cert.Spec.cTiny) := by
  have hsum : Host.reduceAdd (F := Ideal) (mulf R R) zeroS reducesTo_S100000x128_S_d0_1 h_S_ ix0
      = ∑ r : Fin 100000, ∑ c : Fin 128, R (ix2 r c) * R (ix2 r c) := by
    show Ideal.hostReduceAdd reducesTo_S100000x128_S_d0_1 (mulf R R) (zeroS _) ix0 = _
    rw [Ideal.hostReduceAdd_total _ (fun b => b.elim0), zeroS_apply, zero_add, sum_idx2]
    simp only [mulf_apply]
  have hr (v : FVec Ideal S_ .f32) : Host.rsqrt (F := Ideal) v ix0 = Ideal.rsqrt (v ix0) := rfl
  unfold rescaleV
  rw [mulf_apply, broadcastInDim_scalar_apply, hr, maximumf_apply, hsum, constant_apply]
  rfl

/-- The program's tail is the specification's result at the reference's column variance. -/
theorem tail_eq (X : FVec Ideal S100000x128 .f32) : RefRun.tail X = Cert.Spec.out X (Cert.Spec.varR X) := by
  funext i
  obtain ⟨r, q, rfl⟩ : ∃ (r : Fin 100000) (q : Fin 128), i = ix2 r q := ⟨i 0, i 1, eq_ix2 i⟩
  unfold RefRun.tail
  rw [rescaleV_apply, relu_norm_apply]
  simp only [relu_norm_apply]
  rfl

end Cert.ReferenceIdeal.RefValue

end
-- ==== Proof.lean ====
/-
  The certificate of a graph-convolution layer's dense tail. Both programs first build the same dense array
  `X` of shape [100000, 128] from their arguments by two sparse products (a dropout-masked gather of weight rows
  scatter-added by row index, then a gather of those rows scatter-added again), and then normalize it: per
  column the mean `μ` and a variance `v`, the entries `max ((x - μ) · rsqrt (v + ε)) 0`, the sum `T` of their
  squares, and the result `entry · rsqrt (max T tiny)`.

  The kernel does the normalization on three grids of ten row tiles each — column sums and sums of squares
  accumulated over the tiles; the rectified entries written tile by tile beside their accumulated sum of squares;
  the rescaling tile by tile — with a few host operations between, and takes `v = max (Σ x² / N - μ²) 0`. The
  reference does it with whole-array operations and takes `v = Σ (x - μ)² / N`.

  At the ideal instance (floats are extended reals, operations exact) a sum over the tiles of sums inside a tile
  is the sum over all rows, so the kernel's column sums are the whole columns' and its total is the whole array's;
  and for FINITE `x` the two variances are one number (`Σ (x - μ)² / N = Σ x² / N - μ²` by expanding the square,
  and it is nonnegative). The entries of `X` are finite because the float arguments are (the precondition): each is
  a finite sum of finite products, whatever the index arguments hold. Hence equal results, entry by entry.

  The three frames: the kernel's two programs by their generated frame certificates; the reference's by its run
  with the result dropped. The ideal pass rewrote nothing, so the idealization is the program's own text.
-/
import proofs.«154679_j31396210934417_1_alg».proof.Defs
import proofs.«154679_j31396210934417_1_alg».proof.Proof.Gen.Kernel
import proofs.«154679_j31396210934417_1_alg».proof.Proof.Gen.Kernel.Frame
import proofs.«154679_j31396210934417_1_alg».proof.Proof.Gen.KernelIdeal
import proofs.«154679_j31396210934417_1_alg».proof.Proof.Gen.KernelIdeal.Frame
import proofs.«154679_j31396210934417_1_alg».proof.Proof.Gen.ReferenceIdeal
import proofs.«154679_j31396210934417_1_alg».proof.Proof.Gen.Pre_finite_inputs
import proofs.«154679_j31396210934417_1_alg».proof.Proof.KernelRun
import proofs.«154679_j31396210934417_1_alg».proof.Proof.KernelValue
import proofs.«154679_j31396210934417_1_alg».proof.Proof.Variance
import proofs.«154679_j31396210934417_1_alg».proof.Proof.Finite
import proofs.«154679_j31396210934417_1_alg».proof.Proof.RefTerm
import proofs.«154679_j31396210934417_1_alg».proof.Proof.RefRun
import proofs.«154679_j31396210934417_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: its generated frame certificate. -/
theorem frame_kernel : Cert.frame_Kernel (hKernel := Cert.Kernel.Gen.facts)
    (hPre_finite_inputs := Cert.Pre_finite_inputs.Gen.facts) :=
  fun m ρ _ => Cert.Kernel.Gen.frame m ρ

/-- The idealized kernel's frame: its generated frame certificate. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame: its run, the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.RefRun.run m ρ)

/-- The two programs build their dense array by the same operations of the same arguments. -/
theorem pre_eq (a0 : FVec Ideal Cert.KernelIdeal.S1600000 .f32) (a1 a2 : IVec Cert.KernelIdeal.S1600000 32)
    (a3 : FVec Ideal Cert.KernelIdeal.S1600000 .f32) (a4 a5 : IVec Cert.KernelIdeal.S1600000 32)
    (a6 : FVec Ideal Cert.KernelIdeal.S512x128 .f32) (a7 : FVec Ideal Cert.KernelIdeal.S1600000 .f32) :
    Cert.ReferenceIdeal.RefRun.pre a0 a1 a2 a3 a4 a5 a6 a7 = Cert.KernelIdeal.KValue.pre a0 a1 a2 a3 a4 a5 a6 a7 :=
  rfl

/-- Equal results: the kernel ends at the specification with its own variance, the reference with its own,
    and for the finite dense array the two variances are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (Cert.KernelIdeal.KValue.X m c) (Cert.Spec.varK (Cert.KernelIdeal.KValue.X m c)), ?_, ?_⟩
  · exact (θ_run Cert.KernelIdeal.defs _ _).mono
      (fun r h c => ⟨(h c).1.trans (Cert.KernelIdeal.KValue.result_eq m ρ c), (h c).2⟩)
      (Cert.KernelIdeal.KRun.run_named m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7, Cert.ReferenceIdeal.RefValue.tail_eq, pre_eq,
      ← Cert.Spec.varK_eq_varR _ (fun i => Cert.KernelIdeal.Finite.pre_finite m hpre c i)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
